-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x256 .f32) (main_arg3 : FVec F S256 .f32) (main_arg4 : FVec F S256x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S1x64 : Shape := ⟨2, ![1, 64]⟩
abbrev S100000x64 : Shape := ⟨2, ![100000, 64]⟩
abbrev S2000x512 : Shape := ⟨2, ![2000, 512]⟩
abbrev S2000x64 : Shape := ⟨2, ![2000, 64]⟩
abbrev S2000x256 : Shape := ⟨2, ![2000, 256]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S2000 : Shape := ⟨1, ![2000]⟩
abbrev S2000x1 : Shape := ⟨2, ![2000, 1]⟩

abbrev nBuf : Space → Nat
  | .hbm => 168
  | .vmem => 12
  | .smem => 0
  | _ => 0

abbrev hbmTy0_0 (i : Nat) : BufTy := match i % 128 with
  | 0 => ⟨S100000x512, .f32⟩
  | 1 => ⟨S2x3200000, .i32⟩
  | 2 => ⟨S512x256, .f32⟩
  | 3 => ⟨S256, .f32⟩
  | 4 => ⟨S256x64, .f32⟩
  | 5 => ⟨S64, .f32⟩
  | 6 => ⟨S512x256, .bf16⟩
  | 7 => ⟨S256x64, .bf16⟩
  | 8 => ⟨S1x256, .f32⟩
  | 9 => ⟨S1x64, .f32⟩
  | 10 => ⟨S100000x64, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S3300000, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000, .f32⟩
  | 51 => ⟨S3300000, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x64, .f32⟩
  | 61 => ⟨S3300000x1, .f32⟩
  | 62 => ⟨S3300000x64, .f32⟩
  | 63 => ⟨S3300000x64, .f32⟩
  | 64 => ⟨S_, .f32⟩
  | 65 => ⟨S100000x64, .f32⟩
  | 66 => ⟨S3300000x1, .i32⟩
  | 67 => ⟨S100000x64, .f32⟩
  | 68 => ⟨S_, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S3300000, .i32⟩
  | 77 => ⟨S3300000, .i1⟩
  | 78 => ⟨S_, .i32⟩
  | 79 => ⟨S3300000, .i32⟩
  | 80 => ⟨S3300000, .i32⟩
  | 81 => ⟨S3300000, .i32⟩
  | 82 => ⟨S3300000x1, .i32⟩
  | 83 => ⟨S3300000x64, .f32⟩
  | 84 => ⟨S3300000x1, .f32⟩
  | 85 => ⟨S3300000x64, .f32⟩
  | 86 => ⟨S3300000x64, .f32⟩
  | 87 => ⟨S_, .f32⟩
  | 88 => ⟨S100000x64, .f32⟩
  | 89 => ⟨S3300000x1, .i32⟩
  | 90 => ⟨S100000x64, .f32⟩
  | 91 => ⟨S_, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000x64, .f32⟩
  | 107 => ⟨S3300000x1, .f32⟩
  | 108 => ⟨S3300000x64, .f32⟩
  | 109 => ⟨S3300000x64, .f32⟩
  | 110 => ⟨S_, .f32⟩
  | 111 => ⟨S100000x64, .f32⟩
  | 112 => ⟨S3300000x1, .i32⟩
  | 113 => ⟨S100000x64, .f32⟩
  | 114 => ⟨S_, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S_, .i32⟩
  | 122 => ⟨S3300000, .i32⟩
  | 123 => ⟨S3300000, .i1⟩
  | 124 => ⟨S_, .i32⟩
  | 125 => ⟨S3300000, .i32⟩
  | 126 => ⟨S3300000, .i32⟩
  | 127 => ⟨S3300000, .i32⟩
  | _ => ⟨S100000x512, .f32⟩

abbrev hbmTy0_1 (i : Nat) : BufTy := match i % 128 with
  | 0 => ⟨S3300000x1, .i32⟩
  | 1 => ⟨S3300000x64, .f32⟩
  | 2 => ⟨S3300000x1, .f32⟩
  | 3 => ⟨S3300000x64, .f32⟩
  | 4 => ⟨S3300000x64, .f32⟩
  | 5 => ⟨S_, .f32⟩
  | 6 => ⟨S100000x64, .f32⟩
  | 7 => ⟨S3300000x1, .i32⟩
  | 8 => ⟨S100000x64, .f32⟩
  | 9 => ⟨S_, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x64, .f32⟩
  | 16 => ⟨S_, .i32⟩
  | 17 => ⟨S3300000, .i32⟩
  | 18 => ⟨S3300000, .i1⟩
  | 19 => ⟨S_, .i32⟩
  | 20 => ⟨S3300000, .i32⟩
  | 21 => ⟨S3300000, .i32⟩
  | 22 => ⟨S3300000, .i32⟩
  | 23 => ⟨S3300000x1, .i32⟩
  | 24 => ⟨S3300000x64, .f32⟩
  | 25 => ⟨S3300000x1, .f32⟩
  | 26 => ⟨S3300000x64, .f32⟩
  | 27 => ⟨S3300000x64, .f32⟩
  | 28 => ⟨S_, .f32⟩
  | 29 => ⟨S100000x64, .f32⟩
  | 30 => ⟨S3300000x1, .i32⟩
  | 31 => ⟨S100000x64, .f32⟩
  | 32 => ⟨S_, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S100000x64, .f32⟩
  | 39 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S1x256, .f32⟩
  | .local _ .vmem, ⟨4, _⟩ => ⟨S256x64, .bf16⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_v86 : Ref sig .tc := ⟨.hbm, 116, rfl⟩
abbrev main_cst_20 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_21 : Ref sig .tc := ⟨.hbm, 121, rfl⟩
abbrev main_v90 : Ref sig .tc := ⟨.hbm, 122, rfl⟩
abbrev main_v91 : Ref sig .tc := ⟨.hbm, 123, rfl⟩
abbrev main_c_22 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_23 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_24 : Ref sig .tc := ⟨.hbm, 137, rfl⟩
abbrev main_v103 : Ref sig .tc := ⟨.hbm, 138, rfl⟩
abbrev main_v104 : Ref sig .tc := ⟨.hbm, 139, rfl⟩
abbrev main_cst_25 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_26 : Ref sig .tc := ⟨.hbm, 144, rfl⟩
abbrev main_v108 : Ref sig .tc := ⟨.hbm, 145, rfl⟩
abbrev main_v109 : Ref sig .tc := ⟨.hbm, 146, rfl⟩
abbrev main_c_27 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_28 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_29 : Ref sig .tc := ⟨.hbm, 160, rfl⟩
abbrev main_v121 : Ref sig .tc := ⟨.hbm, 161, rfl⟩
abbrev main_v122 : Ref sig .tc := ⟨.hbm, 162, rfl⟩
abbrev main_cst_30 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bitsLt_bf16_f32 : FTy.bits .bf16 < FTy.bits .f32
  shapeCasts_S256_S1x256 : S256.ShapeCasts S1x256
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  dot_S2000x512_S512x256_S2000x256_1_0_0_1_n_n_wf : DotDims.WF S2000x512 S512x256 S2000x256 [1] [0] [0] [1] [] []
  dot_S2000x256_S256x64_S2000x64_1_0_0_1_n_n_wf : DotDims.WF S2000x256 S256x64 S2000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v125) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v126) S2000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S100000x256 : Shape := ⟨2, ![100000, 256]⟩
abbrev S1x256 : Shape := ⟨2, ![1, 256]⟩
abbrev S_ : Shape := ⟨0, ![]⟩
abbrev S100000x64 : Shape := ⟨2, ![100000, 64]⟩
abbrev S1x64 : Shape := ⟨2, ![1, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S3300000x64 : Shape := ⟨2, ![3300000, 64]⟩
abbrev S100000x1 : Shape := ⟨2, ![100000, 1]⟩

abbrev nBuf : Space → Nat
  | .hbm => 188
  | .vmem => 0
  | .smem => 0
  | _ => 0

abbrev hbmTy0_0 (i : Nat) : BufTy := match i % 128 with
  | 0 => ⟨S100000x512, .f32⟩
  | 1 => ⟨S2x3200000, .i32⟩
  | 2 => ⟨S512x256, .f32⟩
  | 3 => ⟨S256, .f32⟩
  | 4 => ⟨S256x64, .f32⟩
  | 5 => ⟨S64, .f32⟩
  | 6 => ⟨S100000x256, .f32⟩
  | 7 => ⟨S1x256, .f32⟩
  | 8 => ⟨S100000x256, .f32⟩
  | 9 => ⟨S100000x256, .f32⟩
  | 10 => ⟨S_, .f32⟩
  | 11 => ⟨S100000x256, .f32⟩
  | 12 => ⟨S100000x256, .f32⟩
  | 13 => ⟨S100000x64, .f32⟩
  | 14 => ⟨S1x64, .f32⟩
  | 15 => ⟨S100000x64, .f32⟩
  | 16 => ⟨S100000x64, .f32⟩
  | 17 => ⟨S100000, .i32⟩
  | 18 => ⟨S1x3200000, .i32⟩
  | 19 => ⟨S3200000, .i32⟩
  | 20 => ⟨S3300000, .i32⟩
  | 21 => ⟨S1x3200000, .i32⟩
  | 22 => ⟨S3200000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x64, .f32⟩
  | 67 => ⟨S3300000x1, .f32⟩
  | 68 => ⟨S3300000x64, .f32⟩
  | 69 => ⟨S3300000x64, .f32⟩
  | 70 => ⟨S_, .f32⟩
  | 71 => ⟨S100000x64, .f32⟩
  | 72 => ⟨S3300000x1, .i32⟩
  | 73 => ⟨S100000x64, .f32⟩
  | 74 => ⟨S_, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S_, .i32⟩
  | 82 => ⟨S3300000, .i32⟩
  | 83 => ⟨S3300000, .i1⟩
  | 84 => ⟨S_, .i32⟩
  | 85 => ⟨S3300000, .i32⟩
  | 86 => ⟨S3300000, .i32⟩
  | 87 => ⟨S3300000, .i32⟩
  | 88 => ⟨S3300000x1, .i32⟩
  | 89 => ⟨S3300000x64, .f32⟩
  | 90 => ⟨S3300000x1, .f32⟩
  | 91 => ⟨S3300000x64, .f32⟩
  | 92 => ⟨S3300000x64, .f32⟩
  | 93 => ⟨S_, .f32⟩
  | 94 => ⟨S100000x64, .f32⟩
  | 95 => ⟨S3300000x1, .i32⟩
  | 96 => ⟨S100000x64, .f32⟩
  | 97 => ⟨S_, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S100000x64, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000x64, .f32⟩
  | 113 => ⟨S3300000x1, .f32⟩
  | 114 => ⟨S3300000x64, .f32⟩
  | 115 => ⟨S3300000x64, .f32⟩
  | 116 => ⟨S_, .f32⟩
  | 117 => ⟨S100000x64, .f32⟩
  | 118 => ⟨S3300000x1, .i32⟩
  | 119 => ⟨S100000x64, .f32⟩
  | 120 => ⟨S_, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S_, .i32⟩
  | _ => ⟨S100000x512, .f32⟩

abbrev hbmTy0_1 (i : Nat) : BufTy := match i % 128 with
  | 0 => ⟨S3300000, .i32⟩
  | 1 => ⟨S3300000, .i1⟩
  | 2 => ⟨S_, .i32⟩
  | 3 => ⟨S3300000, .i32⟩
  | 4 => ⟨S3300000, .i32⟩
  | 5 => ⟨S3300000, .i32⟩
  | 6 => ⟨S3300000x1, .i32⟩
  | 7 => ⟨S3300000x64, .f32⟩
  | 8 => ⟨S3300000x1, .f32⟩
  | 9 => ⟨S3300000x64, .f32⟩
  | 10 => ⟨S3300000x64, .f32⟩
  | 11 => ⟨S_, .f32⟩
  | 12 => ⟨S100000x64, .f32⟩
  | 13 => ⟨S3300000x1, .i32⟩
  | 14 => ⟨S100000x64, .f32⟩
  | 15 => ⟨S_, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x64, .f32⟩
  | 22 => ⟨S_, .i32⟩
  | 23 => ⟨S3300000, .i32⟩
  | 24 => ⟨S3300000, .i1⟩
  | 25 => ⟨S_, .i32⟩
  | 26 => ⟨S3300000, .i32⟩
  | 27 => ⟨S3300000, .i32⟩
  | 28 => ⟨S3300000, .i32⟩
  | 29 => ⟨S3300000x1, .i32⟩
  | 30 => ⟨S3300000x64, .f32⟩
  | 31 => ⟨S3300000x1, .f32⟩
  | 32 => ⟨S3300000x64, .f32⟩
  | 33 => ⟨S3300000x64, .f32⟩
  | 34 => ⟨S_, .f32⟩
  | 35 => ⟨S100000x64, .f32⟩
  | 36 => ⟨S3300000x1, .i32⟩
  | 37 => ⟨S100000x64, .f32⟩
  | 38 => ⟨S_, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | 45 => ⟨S_, .f32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x64, .f32⟩
  | 52 => ⟨S100000x64, .f32⟩
  | 53 => ⟨S100000x64, .f32⟩
  | 54 => ⟨S_, .f32⟩
  | 55 => ⟨S100000, .f32⟩
  | 56 => ⟨S100000x1, .f32⟩
  | 57 => ⟨S100000x1, .f32⟩
  | 58 => ⟨S100000x64, .f32⟩
  | 59 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_cst_20 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_21 : Ref sig .tc := ⟨.hbm, 127, rfl⟩
abbrev main_v94 : Ref sig .tc := ⟨.hbm, 128, rfl⟩
abbrev main_v95 : Ref sig .tc := ⟨.hbm, 129, rfl⟩
abbrev main_c_22 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_23 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_24 : Ref sig .tc := ⟨.hbm, 143, rfl⟩
abbrev main_v107 : Ref sig .tc := ⟨.hbm, 144, rfl⟩
abbrev main_v108 : Ref sig .tc := ⟨.hbm, 145, rfl⟩
abbrev main_cst_25 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_c_26 : Ref sig .tc := ⟨.hbm, 150, rfl⟩
abbrev main_v112 : Ref sig .tc := ⟨.hbm, 151, rfl⟩
abbrev main_v113 : Ref sig .tc := ⟨.hbm, 152, rfl⟩
abbrev main_c_27 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_28 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_29 : Ref sig .tc := ⟨.hbm, 166, rfl⟩
abbrev main_v125 : Ref sig .tc := ⟨.hbm, 167, rfl⟩
abbrev main_v126 : Ref sig .tc := ⟨.hbm, 168, rfl⟩
abbrev main_cst_30 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_call2_cst : Ref sig .tc := ⟨.hbm, 173, rfl⟩
abbrev main_call2_v0 : Ref sig .tc := ⟨.hbm, 174, rfl⟩
abbrev main_call2_cst_0 : Ref sig .tc := ⟨.hbm, 175, rfl⟩
abbrev main_call2_v1 : Ref sig .tc := ⟨.hbm, 176, rfl⟩
abbrev main_call2_v2 : Ref sig .tc := ⟨.hbm, 177, rfl⟩
abbrev main_call2_v3 : Ref sig .tc := ⟨.hbm, 178, rfl⟩
abbrev main_call2_v4 : Ref sig .tc := ⟨.hbm, 179, rfl⟩
abbrev main_call2_v5 : Ref sig .tc := ⟨.hbm, 180, rfl⟩
abbrev main_call2_v6 : Ref sig .tc := ⟨.hbm, 181, rfl⟩
abbrev main_call2_cst_1 : Ref sig .tc := ⟨.hbm, 182, rfl⟩
abbrev main_call2_v7 : Ref sig .tc := ⟨.hbm, 183, rfl⟩
abbrev main_call2_v8 : Ref sig .tc := ⟨.hbm, 184, rfl⟩
abbrev main_call2_v9 : Ref sig .tc := ⟨.hbm, 185, rfl⟩
abbrev main_call2_v10 : Ref sig .tc := ⟨.hbm, 186, rfl⟩
abbrev main_v130 : Ref sig .tc := ⟨.hbm, 187, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x512_S512x256_S100000x256_1_0_0_1_n_n_wf : DotDims.WF S100000x512 S512x256 S100000x256 [1] [0] [0] [1] [] []
  dot_S100000x256_S256x64_S100000x64_1_0_0_1_n_n_wf : DotDims.WF S100000x256 S256x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelRun.lean ====
/-
  The kernel program's run with its result named.

  Every weakly fair execution of the program ends, nothing faulting, with every buffer outside the scoped memories at the
  contents the fold through the program's segments leaves: four host operations, the first pallas_call, the host
  operations of the propagation, the second pallas_call. Read at the result buffer this gives the result array as what
  the second pallas_call's write-backs leave; read at the arguments it gives them unchanged.
-/
import proofs.«154835_j58188216926735_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: the result buffer ends at the last segment boundary's contents, the arguments as launched. -/
theorem run : θ_run defs (onTc (τ := τ) (main (F := F))) ⟨m, fun _ => 0, ρ⟩ (fun r => ∀ c : Dev nD,
      r.2.mem ((c.tc : Thread nD τ).loc main_v126) = W6 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v126 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.Middle.lean ====
/-
  The graph propagation both programs run between the perceptron and the log-softmax, as ONE function of the node
  embeddings and the edge list.

  The edge list [2, 3200000] gives a source row and a target row; every node's own number is appended to each (the self
  loops), 3300000 edges in all. A node's degree is the number of edges that end at it (a sum of ones scattered to the
  targets); its weight is degree^(−1/2) where the degree is positive and 0 elsewhere; an edge's coefficient is the product
  of its two ends' weights (each end's number first wrapped: a negative number gets 100000 added). One round gathers
  every edge's source embedding, scales it by the edge's coefficient, sums the results at the targets, and returns
  0.9 · (that sum) + 0.1 · (the embeddings the propagation started from). Five rounds. The constants stay the words the
  programs print. Generic in the float instance, the side conditions and the dimension records: nothing here depends on
  a program.
-/
import Idealize.ShloMosaic.PureOps

noncomputable section

namespace Cert.Middle

open Idealize.ShloMosaic

/-- The edge list [2, 3200000]. -/
abbrev SE : Shape := ⟨2, ![2, 3200000]⟩
/-- One row of it [1, 3200000]. -/
abbrev SE1 : Shape := ⟨2, ![1, 3200000]⟩
/-- One row of it as a vector [3200000]. -/
abbrev SEv : Shape := ⟨1, ![3200000]⟩
/-- One number per node [100000]. -/
abbrev SN : Shape := ⟨1, ![100000]⟩
/-- One number per edge, self loops included [3300000]. -/
abbrev SM : Shape := ⟨1, ![3300000]⟩
/-- The same as a column [3300000, 1]. -/
abbrev SM1 : Shape := ⟨2, ![3300000, 1]⟩
/-- One embedding per edge [3300000, 64]. -/
abbrev SM64 : Shape := ⟨2, ![3300000, 64]⟩
/-- One embedding per node [100000, 64]. -/
abbrev SH : Shape := ⟨2, ![100000, 64]⟩
/-- A scalar. -/
abbrev S0 : Shape := ⟨0, ![]⟩

/-- The side conditions of the layout operations. -/
structure Facts : Prop where
  row0 : SE.Slices ![0, 0] SE1
  row1 : SE.Slices ![1, 0] SE1
  flat : SE1.ShapeCasts SEv
  join : Shape.Concatenates [SEv, SN] SM 0
  toM : S0.BroadcastsInDim SM (![] : Fin 0 → Fin SM.rank)
  toN : S0.BroadcastsInDim SN (![] : Fin 0 → Fin SN.rank)
  col : SM.BroadcastsInDim SM1 (![0] : Fin 1 → Fin SM1.rank)
  spread : SM1.BroadcastsInDim SM64 (![0, 1] : Fin 2 → Fin SM64.rank)
  toH : S0.BroadcastsInDim SH (![] : Fin 0 → Fin SH.rank)

/-- The dimension records of the two scatters and the two gathers. -/
structure Dims where
  scN : ScatterDims SN SM1 SM
  gN : GatherDims SN SM1 SM
  gH : GatherDims SH SM1 SM64
  scH : ScatterDims SH SM1 SM64

variable {F : FTy → Type} [FloatOps F]

/-- An integer array of shape `s`. -/
abbrev IArr (F : FTy → Type) (s : Shape) : Type := (⟨s, .i32⟩ : BufTy).Contents (Elt F)
/-- A float array of shape `s`. -/
abbrev FArr (F : FTy → Type) (s : Shape) : Type := (⟨s, .f32⟩ : BufTy).Contents (Elt F)

variable (φ : Facts) (d : Dims)

/-- The edges' sources: row 0 of the edge list, then every node's own number. -/
def sources (e : IArr F SE) : IArr F SM :=
  concatenate SM 0 [⟨SEv, shapeCast SEv (extractStridedSlice SE1 ![0, 0] e φ.row0) φ.flat⟩, ⟨SN, iotaInDim SN 32 0⟩] φ.join

/-- The edges' targets: row 1 of the edge list, then every node's own number. -/
def targets (e : IArr F SE) : IArr F SM :=
  concatenate SM 0 [⟨SEv, shapeCast SEv (extractStridedSlice SE1 ![1, 0] e φ.row1) φ.flat⟩, ⟨SN, iotaInDim SN 32 0⟩] φ.join

/-- One per edge. -/
def ones : FArr F SM := broadcastInDim SM ![] φ.toM (constant S0 .f32 0x3F800000#32)

/-- A node number made nonnegative: a negative one gets 100000 added. -/
def wrap (r : IArr F SM) : IArr F SM :=
  select (cmpi .slt r (broadcastInDim SM ![] φ.toM (constantI S0 32 0#32)))
    (addi r (broadcastInDim SM ![] φ.toM (constantI S0 32 100000#32))) r

/-- A node's degree: the edges' ones summed at their targets. -/
def degree (tgt : IArr F SM) (w : FArr F SM) : FArr F SN :=
  Host.scatterAdd d.scN (broadcastInDim SN ![] φ.toN (constant S0 .f32 0x00000000#32)) (broadcastInDim SM1 ![0] φ.col tgt) w

/-- Is the degree positive? -/
def positive (deg : FArr F SN) : (⟨SN, .i1⟩ : BufTy).Contents (Elt F) :=
  cmpf .ogt deg (broadcastInDim SN ![] φ.toN (constant S0 .f32 0x00000000#32))

/-- A node's weight from the three pieces the programs compute apart: where the degree is positive its inverse square
    root, elsewhere the given scalar. -/
def weightOf (pos : (⟨SN, .i1⟩ : BufTy).Contents (Elt F)) (rs : FArr F SN) (z : (⟨S0, .f32⟩ : BufTy).Contents (Elt F)) : FArr F SN :=
  select pos rs (broadcastInDim SN ![] φ.toN (id z))

/-- A node's weight: degree^(−1/2) where the degree is positive, 0 elsewhere. -/
def weight (deg : FArr F SN) : FArr F SN :=
  weightOf φ (positive φ deg) (Host.rsqrt deg) (constant S0 .f32 0x00000000#32)

/-- An edge's coefficient: its source's weight, times one, times its target's weight. -/
def coeff (src tgt : IArr F SM) (w : FArr F SM) (dv : FArr F SN) : FArr F SM :=
  mulf (mulf (Host.gather d.gN dv (broadcastInDim SM1 ![0] φ.col (wrap φ src))) w)
    (Host.gather d.gN dv (broadcastInDim SM1 ![0] φ.col (wrap φ tgt)))

/-- One round: 0.9 · (the sources' embeddings, scaled by the coefficients, summed at the targets) + 0.1 · x0. -/
def step (src tgt : IArr F SM) (nrm : FArr F SM) (x0 h : FArr F SH) : FArr F SH :=
  addf
    (mulf (broadcastInDim SH ![] φ.toH (constant S0 .f32 0x3F666666#32))
      (Host.scatterAdd d.scH (broadcastInDim SH ![] φ.toH (constant S0 .f32 0x00000000#32)) (broadcastInDim SM1 ![0] φ.col tgt)
        (mulf (Host.gather d.gH h (broadcastInDim SM1 ![0] φ.col (wrap φ src)))
          (broadcastInDim SM64 ![0, 1] φ.spread (broadcastInDim SM1 ![0] φ.col nrm)))))
    (mulf (broadcastInDim SH ![] φ.toH (constant S0 .f32 0x3DCCCCCD#32)) x0)

/-- Five rounds from x0, at given coefficients. -/
def rounds (src tgt : IArr F SM) (nrm : FArr F SM) (x0 : FArr F SH) : FArr F SH :=
  step φ d src tgt nrm x0 (step φ d src tgt nrm x0 (step φ d src tgt nrm x0 (step φ d src tgt nrm x0 (step φ d src tgt nrm x0 x0))))

/-- Five rounds from x0, the coefficients computed from the ends, the ones and the weights. -/
def propagate (src tgt : IArr F SM) (w : FArr F SM) (dv : FArr F SN) (x0 : FArr F SH) : FArr F SH :=
  rounds φ d src tgt (coeff φ d src tgt w dv) x0

/-- The whole propagation as a function of the embeddings and the edge list. -/
def mid (x0 : FArr F SH) (e : IArr F SE) : FArr F SH :=
  propagate φ d (sources φ e) (targets φ e) (ones φ) (weight φ (degree φ d (targets φ e) (ones φ))) x0

end Cert.Middle

end
-- ==== Proof.LibHostReads.lean ====
/-
  Reading a line of host operations at a buffer, below an operand list.

  The buffers after a line of host operations are a fold: each operation rewrites its result buffer to its function of
  its operands' contents and leaves every other buffer as it was. One rewriting pass (`after_results_simp`) computes
  such a read down to the arguments, except below an operand LIST — the pieces of a concatenation, a list of pairs
  (shape, array) — where the pass does not descend and leaves reads of the form "this operation's result over what
  came before, at that buffer". The tactic `host_reads` finishes those reads one operation at a time: an operation's
  result at its own buffer is its function's value, at another buffer what was there (the two buffers told apart as
  references). Use: `simp only [<the list's name>]; after_results_simp; host_reads`, then `rfl` or the certificate's
  own lemma. General: nothing here depends on a program.
-/
import Idealize.ShloMosaic.Lib.StableHlo.Run

namespace Cert.LibHostReads

open Idealize.ShloMosaic Idealize.ShloMosaic.StableHlo

/-- Each operation's result at its own buffer is its function's value, at another buffer what was there. -/
macro "host_reads" : tactic =>
  `(tactic| repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)))

end Cert.LibHostReads
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.LibTRefCasts.lean ====
/-
  Contents carried to a typed reference's buffer and back.

  A module-local function's operations are stated over typed references: a reference together with a proof that its
  buffer's type is the tensor value's. Writing through one transports contents along that equation, reading transports
  them back. Written and then read through the same typed reference, contents are unchanged; and at a reference whose
  buffer type IS the value type each transport alone is the identity. General: nothing here depends on a program.
-/
import Idealize.ShloMosaic.Lib.StableHlo

namespace Cert.LibTRefCasts

open Idealize.ShloMosaic Idealize.ShloMosaic.StableHlo

variable {sig : RefSig} {Val : EltTy → Type}

/-- Contents written through a typed reference and read back through it are unchanged. -/
theorem ofBuf_toBuf {T : BufTy} (x : TRef sig T) (v : T.Contents Val) : x.ofBuf (x.toBuf v) = v := by
  obtain ⟨r, h, _, _⟩ := x
  subst h
  rfl

/-- Contents read through a typed reference and written back through it are unchanged. -/
theorem toBuf_ofBuf {T : BufTy} (x : TRef sig T) (v : x.ref.ty.Contents Val) : x.toBuf (x.ofBuf v) = v := by
  obtain ⟨r, h, _, _⟩ := x
  subst h
  rfl

/-- Contents written through a typed reference whose value type is the buffer's own type are unchanged. -/
theorem toBuf_self (r : Ref sig .tc) (h1 : r.ty = r.ty) (h2 : r.space ≠ .host) (h3 : r.isScoped = false) (v : r.ty.Contents Val) :
    (TRef.of (T := r.ty) r h1 h2 h3).toBuf v = v := rfl

/-- Contents read through a typed reference whose value type is the buffer's own type are unchanged. -/
theorem ofBuf_self (r : Ref sig .tc) (h1 : r.ty = r.ty) (h2 : r.space ≠ .host) (h3 : r.isScoped = false) (v : r.ty.Contents Val) :
    (TRef.of (T := r.ty) r h1 h2 h3).ofBuf v = v := rfl

end Cert.LibTRefCasts
-- ==== Proof.KernelMiddle.lean ====
/-
  The kernel program's host operations between its two pallas_calls compute the shared propagation.

  The operations come in three stretches. Each is read over an arbitrary valuation of the buffers: the first builds the
  edges' sources and targets, the ones, the degree's comparison with zero and its inverse square root; the second (the
  inlined select) builds the weights; the third runs the coefficients and the five rounds. Buffers a stretch does not
  write keep their contents. Composed, the array handed to the second pallas_call is the propagation of the array the
  first one left and of the edge list.
-/
import proofs.«154835_j58188216926735_1_alg».proof.Proof.Gen.KernelIdeal.Frame
import proofs.«154835_j58188216926735_1_alg».proof.Proof.Middle
import proofs.«154835_j58188216926735_1_alg».proof.Proof.LibHostReads
import proofs.«154835_j58188216926735_1_alg».proof.Proof.LibKeeps
import proofs.«154835_j58188216926735_1_alg».proof.Proof.LibTRefCasts

set_option maxRecDepth 16384

noncomputable section

namespace Cert.KernelIdeal.MidValue

open Cert.KernelIdeal Cert.KernelIdeal.Gen Idealize.ShloMosaic Idealize.ShloMosaic.StableHlo Idealize.SL.Sem
open Cert.LibHostReads Cert.LibTRefCasts Idealize.ShloMosaic.TcCoe

variable {F : FTy → Type} [FloatOps F]

/-- The program's side conditions, as the shared propagation takes them. -/
theorem midFacts : Cert.Middle.Facts :=
  ⟨slices_S2x3200000_S1x3200000_0_0, slices_S2x3200000_S1x3200000_1_0, shapeCasts_S1x3200000_S3200000,
    concatenates_S3200000_S100000_S3300000_d0, bcast_S_S3300000, bcast_S_S100000, bcast_S3300000_S3300000x1_0,
    bcast_S3300000x1_S3300000x64_0_1, bcast_S_S100000x64⟩

/-- The program's dimension records, as the shared propagation takes them. -/
abbrev midDims : Cert.Middle.Dims :=
  ⟨scatter_S100000_S3300000x1_S3300000_n_0_0_1, gather_S100000_S3300000x1_S3300000_n_0_n_n_0_1_1,
    gather_S100000x64_S3300000x1_S3300000x64_1_0_n_n_0_1_164, scatter_S100000x64_S3300000x1_S3300000x64_1_0_0_1⟩

variable (V : Valuation τ sig (Elt F))

/-! ## The first stretch: the edges' ends, the ones, the degree's two readings -/

theorem first_sources :
    after (hostOps1 (F := F)) V (Proc.devRef .tc main_v8) = Cert.Middle.sources midFacts (V (Proc.devRef .tc main_arg1)) := by
  simp only [hostOps1]
  after_results_simp
  host_reads
  rfl

theorem first_targets :
    after (hostOps1 (F := F)) V (Proc.devRef .tc main_v11) = Cert.Middle.targets midFacts (V (Proc.devRef .tc main_arg1)) := by
  simp only [hostOps1]
  after_results_simp
  host_reads
  rfl

theorem first_ones :
    after (hostOps1 (F := F)) V (Proc.devRef .tc main_v12) = Cert.Middle.ones (F := F) midFacts := by
  simp only [hostOps1]
  after_results_simp
  rfl

theorem first_positive :
    after (hostOps1 (F := F)) V (Proc.devRef .tc main_v17)
      = Cert.Middle.positive midFacts (Cert.Middle.degree midFacts midDims (Cert.Middle.targets midFacts (V (Proc.devRef .tc main_arg1))) (Cert.Middle.ones midFacts)) := by
  simp only [hostOps1]
  after_results_simp
  host_reads
  rfl

theorem first_rsqrt :
    after (hostOps1 (F := F)) V (Proc.devRef .tc main_v18)
      = Host.rsqrt (Cert.Middle.degree midFacts midDims (Cert.Middle.targets midFacts (V (Proc.devRef .tc main_arg1))) (Cert.Middle.ones midFacts)) := by
  simp only [hostOps1]
  after_results_simp
  host_reads
  rfl

theorem first_zero :
    after (hostOps1 (F := F)) V (Proc.devRef .tc main_cst_2) = constant S_ .f32 0x00000000#32 := by
  simp only [hostOps1]
  after_results_simp

theorem first_keeps_v4 : after (hostOps1 (F := F)) V (Proc.devRef .tc main_v4) = V (Proc.devRef .tc main_v4) := by
  keeps_host hostOps1

/-! ## The second stretch: the weights -/

theorem second_weight :
    after (hostOps1_1 (F := F)) V (Proc.devRef .tc main_v19)
      = Cert.Middle.weightOf midFacts (V (Proc.devRef .tc main_v17)) (V (Proc.devRef .tc main_v18)) (V (Proc.devRef .tc main_cst_2)) := by
  simp only [hostOps1_1]
  after_results_simp
  rfl

theorem second_keeps_v4 : after (hostOps1_1 (F := F)) V (Proc.devRef .tc main_v4) = V (Proc.devRef .tc main_v4) := by
  keeps_host hostOps1_1
theorem second_keeps_v8 : after (hostOps1_1 (F := F)) V (Proc.devRef .tc main_v8) = V (Proc.devRef .tc main_v8) := by
  keeps_host hostOps1_1
theorem second_keeps_v11 : after (hostOps1_1 (F := F)) V (Proc.devRef .tc main_v11) = V (Proc.devRef .tc main_v11) := by
  keeps_host hostOps1_1
theorem second_keeps_v12 : after (hostOps1_1 (F := F)) V (Proc.devRef .tc main_v12) = V (Proc.devRef .tc main_v12) := by
  keeps_host hostOps1_1

/-! ## The third stretch: the coefficients and the five rounds -/

set_option maxHeartbeats 4000000 in
theorem third_rounds :
    after (hostOps1_2 (F := F)) V (Proc.devRef .tc main_v125)
      = Cert.Middle.propagate midFacts midDims (V (Proc.devRef .tc main_v8)) (V (Proc.devRef .tc main_v11))
          (V (Proc.devRef .tc main_v12)) (V (Proc.devRef .tc main_v19)) (V (Proc.devRef .tc main_v4)) := by
  simp only [hostOps1_2]
  after_results_simp
  rfl

/-! ## Composed -/

variable (m : (ℓ : Loc nD τ sig) → Buf (Elt F) ℓ) (ρ : Dev nD → PrngReg)

/-- The edge list reaches the propagation as launched: nothing before it writes that buffer. -/
theorem edges_as_launched (c : Dev nD) :
    W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by keeps_host hostOps0
    _ = m ((c : Thread nD τ).loc main_arg1) := rfl

/-- What the second pallas_call is handed: the propagation of what the first one left and of the edge list. -/
theorem handed (c : Dev nD) :
    W5 m ρ c (Proc.devRef .tc main_v125)
      = Cert.Middle.mid midFacts midDims (W2 m ρ c (Proc.devRef .tc main_v4)) (m ((c : Thread nD τ).loc main_arg1)) := by
  show after hostOps1_2 (after hostOps1_1 (after hostOps1 (W2 m ρ c))) (Proc.devRef .tc main_v125) = _
  rw [third_rounds, second_keeps_v8, second_keeps_v11, second_keeps_v12, second_weight, second_keeps_v4,
    first_sources, first_targets, first_ones, first_positive, first_rsqrt, first_zero, first_keeps_v4, edges_as_launched]
  rfl

end Cert.KernelIdeal.MidValue

end
-- ==== Proof.Spec.lean ====
/-
  What the network computes, entry by entry, over the extended reals.

  The model is: a two-layer perceptron on every node's 512 features
      h0[r, c] = (Σ_k max(Σ_j x[r, j] · W1[j, k] + b1[k], 0) · W2[k, c]) + b2[c],
  five rounds of degree-normalised propagation over the edge list (stated elsewhere, as one function shared by the two
  programs), and a row-wise log-softmax
      out[r, c] = (h[r, c] − M_r) − log Σ_j exp(h[r, j] − M_r),      M_r = max_j h[r, j].
  The row maximum is the fold of `max` from −∞ over the 64 entries of the row. Nothing here depends on a program.
-/
import Idealize.ShloMosaic.PureOps.Ideal
import Idealize.ShloMosaic.Lib.ValueIdx

noncomputable section

open scoped BigOperators

namespace Cert.Spec

open Idealize.ShloMosaic Idealize.ShloMosaic.ValueIdx

/-- Node features [100000, 512]. -/
abbrev SX : Shape := ⟨2, ![100000, 512]⟩
/-- First weights [512, 256]. -/
abbrev SW1 : Shape := ⟨2, ![512, 256]⟩
/-- First bias [256]. -/
abbrev SB1 : Shape := ⟨1, ![256]⟩
/-- Second weights [256, 64]. -/
abbrev SW2 : Shape := ⟨2, ![256, 64]⟩
/-- Second bias [64]. -/
abbrev SB2 : Shape := ⟨1, ![64]⟩
/-- Node embeddings [100000, 64]. -/
abbrev SH : Shape := ⟨2, ![100000, 64]⟩

/-- Hidden unit `k` of node `r`: max(Σ_j x[r, j] · W1[j, k] + b1[k], 0). -/
def hidden (x : SX.Idx → EReal) (w1 : SW1.Idx → EReal) (b1 : SB1.Idx → EReal) (r : Fin 100000) (k : Fin 256) : EReal :=
  max ((∑ j : Fin 512, x (ix2 r j) * w1 (ix2 j k)) + b1 (ix1 k)) 0

/-- Output `c` of node `r` of the perceptron: (Σ_k hidden[r, k] · W2[k, c]) + b2[c]. -/
def mlpAt (x : SX.Idx → EReal) (w1 : SW1.Idx → EReal) (b1 : SB1.Idx → EReal) (w2 : SW2.Idx → EReal) (b2 : SB2.Idx → EReal)
    (r : Fin 100000) (c : Fin 64) : EReal :=
  (∑ k : Fin 256, hidden x w1 b1 r k * w2 (ix2 k c)) + b2 (ix1 c)

/-- The perceptron as a whole array. -/
def mlp (x : SX.Idx → EReal) (w1 : SW1.Idx → EReal) (b1 : SB1.Idx → EReal) (w2 : SW2.Idx → EReal) (b2 : SB2.Idx → EReal) :
    SH.Idx → EReal :=
  fun i => mlpAt x w1 b1 w2 b2 (i 0) (i 1)

theorem mlp_ix2 (x : SX.Idx → EReal) (w1 : SW1.Idx → EReal) (b1 : SB1.Idx → EReal) (w2 : SW2.Idx → EReal) (b2 : SB2.Idx → EReal)
    (r : Fin 100000) (c : Fin 64) : mlp x w1 b1 w2 b2 (ix2 r c) = mlpAt x w1 b1 w2 b2 r c := rfl

/-- The largest entry of row `r`: the fold of `max` from −∞ over the row. -/
def rowMax (h : SH.Idx → EReal) (r : Fin 100000) : EReal :=
  (Finset.univ : Finset (Fin 64)).fold max ⊥ (fun j => h (ix2 r j))

/-- Entry (r, c) of the row-wise log-softmax. -/
def lsmAt (h : SH.Idx → EReal) (r : Fin 100000) (c : Fin 64) : EReal :=
  (h (ix2 r c) - rowMax h r) - Ideal.log (∑ j : Fin 64, Ideal.exp (h (ix2 r j) - rowMax h r))

/-- The row-wise log-softmax as a whole array. -/
def logSoftmax (h : SH.Idx → EReal) : SH.Idx → EReal :=
  fun i => lsmAt h (i 0) (i 1)

theorem logSoftmax_ix2 (h : SH.Idx → EReal) (r : Fin 100000) (c : Fin 64) : logSoftmax h (ix2 r c) = lsmAt h r c := rfl

/-- Two whole arrays that agree at every pair of coordinates are equal. -/
theorem ext_ix2 {f g : SH.Idx → EReal} (h : ∀ (r : Fin 100000) (c : Fin 64), f (ix2 r c) = g (ix2 r c)) : f = g := by
  funext i
  rw [eq_ix2 i]
  exact h (i 0) (i 1)

end Cert.Spec

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«154835_j58188216926735_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.MlpEntry.lean ====
/-
  The perceptron kernel's stored value at one entry of its block.

  On a block of 2000 rows the body computes, from the block x of features and the whole weight and bias arrays,
      (max(x · W1 + b1, 0) · W2) + b2
  where each product is a contraction into the zero accumulator, each bias is a one-row array repeated down the rows,
  the conversions to the narrower format are the identity on extended reals, and a cast to the same shape is the
  identity.  So at entry (p, q) the stored value is
      (Σ_k max(Σ_j x(p, j) · W1(j, k) + b1(0, k), 0) · W2(k, q)) + b2(0, q).
-/
import proofs.«154835_j58188216926735_1_alg».proof.Proof.Gen.KernelIdeal.Skeleton
import proofs.«154835_j58188216926735_1_alg».proof.Proof.LibPlainDotFormats
import proofs.«154835_j58188216926735_1_alg».proof.Proof.LibRowLayout
import Idealize.ShloMosaic.Lib.Pipeline.Value
import Idealize.ShloMosaic.Lib.ValueIdx
import Idealize.ShloMosaic.PureOps.Ideal.Laws

noncomputable section

open scoped BigOperators

namespace Cert.KernelIdeal.MlpValue

open Cert.KernelIdeal Cert.KernelIdeal.Gen Idealize.ShloMosaic Idealize.ShloMosaic.ValueIdx

/-- The first layer's contraction is a plain product [2000, 512] × [512, 256]. -/
theorem plainK1 : Cert.LibPlainDot.Plain dot_S2000x512_S512x256_S2000x256_1_0_0_1_n_n := ⟨rfl, rfl, rfl, rfl, rfl, rfl⟩

/-- The second layer's contraction is a plain product [2000, 256] × [256, 64]. -/
theorem plainK2 : Cert.LibPlainDot.Plain dot_S2000x256_S256x64_S2000x64_1_0_0_1_n_n := ⟨rfl, rfl, rfl, rfl, rfl, rfl⟩

/-- The stored value at entry (p, q) of the block, from the block of features and the weight and bias arrays. -/
theorem pay_apply (v0 : FVec Ideal S2000x512 .f32) (v2 : FVec Ideal S512x256 .bf16) (v5 : FVec Ideal S1x256 .f32)
    (v12 : FVec Ideal S256x64 .bf16) (v15 : FVec Ideal S1x64 .f32) (p : Fin 2000) (q : Fin 64) :
    Gen.k0_pay1 (F := Ideal) v0 v2 v5 v12 v15 (ix2 p q)
      = (∑ k : Fin 256, max ((∑ j : Fin 512, v0 (ix2 p j) * v2 (ix2 j k)) + v5 (ix2 (0 : Fin 1) k)) 0 * v12 (ix2 k q))
          + v15 (ix2 (0 : Fin 1) q) := by
  unfold Gen.k0_pay1
  simp only [shapeCast_self]
  -- the second bias added to the second product
  refine (addf_apply _ _ _).trans ?_
  refine congr (congrArg HAdd.hAdd ?_) (Cert.LibRowLayout.broadcastTo_1b_ab_apply v15 _ p q)
  simp only [matmul]
  refine (plainK2.matmul_zero_apply_formats none (φ₁ := .bf16) (φ₂ := .bf16) _ _ p q).trans ?_
  refine Finset.sum_congr rfl fun k _ => congrArg (· * v12 (ix2 k q)) ?_
  -- the hidden unit k: the conversion is the identity, the maximum is with the zero literal's value
  refine (truncf_apply (φ := .f32) (ψ := .bf16) _ bitsLt_bf16_f32 (ix2 p k)).trans ?_
  refine (maximumf_apply _ _ _).trans ?_
  refine congr (congrArg max ?_) ?_
  · refine (addf_apply _ _ _).trans ?_
    refine congr (congrArg HAdd.hAdd ?_) (Cert.LibRowLayout.broadcastTo_1b_ab_apply v5 _ p k)
    refine (plainK1.matmul_zero_apply_formats none (φ₁ := .bf16) (φ₂ := .bf16) _ _ p k).trans ?_
    rfl
  · exact Ideal.ofBits_zero_f32

end Cert.KernelIdeal.MlpValue

end
-- ==== Proof.MlpKernel.lean ====
/-
  The perceptron region, from its blocks to the whole array.

  The region walks 50 points; at point t the output's block is rows 2000·t … 2000·t + 1999 of the [100000, 64] array, the
  feature window's block the same rows of the [100000, 512] features, and the four weight and bias windows are whole
  arrays.  The stored block at entry (p, q) is the perceptron of row 2000·t + p of the features (the entry lemma), so
  every written-back block is a block of ONE function of the five window arrays; the blocks cover the array (row r lies
  in the block of point r / 2000); hence the array ends at that function.  Before the region, four operations prepare
  the windows' arrays from the launch arguments: two conversions to a narrower format (the identity on extended reals)
  and two views of a bias vector [b] as a one-row array [1, b], whose entry (0, k) is the vector's entry k.
-/
import proofs.«154835_j58188216926735_1_alg».proof.Proof.Gen.KernelIdeal.Frame
import proofs.«154835_j58188216926735_1_alg».proof.Proof.Spec
import proofs.«154835_j58188216926735_1_alg».proof.Proof.MlpEntry
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem Idealize.ShloMosaic.StableHlo
open Idealize.ShloMosaic.Pipeline (Dat)

namespace Cert.KernelIdeal.MlpValue

open Cert.KernelIdeal Cert.KernelIdeal.Gen Idealize.ShloMosaic.ValueIdx

/-! ## The region, at any contents of the buffers at its entry -/

section Region

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The perceptron of a feature array, two weight arrays and two ONE-ROW bias arrays [1, 256], [1, 64]: the
    specification's perceptron with each bias read along its one row. -/
def G (X : S100000x512.Idx → EReal) (W1 : S512x256.Idx → EReal) (B1 : S1x256.Idx → EReal) (W2 : S256x64.Idx → EReal)
    (B2 : S1x64.Idx → EReal) : S100000x64.Idx → EReal :=
  Cert.Spec.mlp X W1 (fun i => B1 (ix2 (0 : Fin 1) (i 0))) W2 (fun i => B2 (ix2 (0 : Fin 1) (i 0)))

/-- The block indices at point t, decided over the 50 points: the features' and the output's blocks are block t of the
    rows, the weight and bias windows sit at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 50 :=
  (by decide +kernel : ∀ t : Fin grid0.N, _)

/-- The features' block at point t is rows 2000·t … 2000·t + 1999 of the feature array. -/
theorem iblk0_0_apply (c : Dev nD) (t : Fin cfg0.N) (y : S2000x512.Idx) (i : S100000x512.Idx)
    (h0 : (i 0).val = t.val * 2000 + (y 0).val) (h1 : (i 1).val = (y 1).val) :
    (Gen.iblk0 V c 0 t : Vec Ideal S2000x512 .f32) y = (V c main_arg0 : S100000x512.Idx → Elt Ideal .f32) i := by
  obtain ⟨e0, e1, -⟩ := idx_facts t
  unfold Gen.iblk0
  rw [View.read_apply]
  show (V c main_arg0 : S100000x512.Idx → Elt Ideal .f32) _ = _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The first weights' block at any point is the whole array. -/
theorem iblk0_1_eq (c : Dev nD) (t : Fin cfg0.N) :
    (Gen.iblk0 V c 1 t : Vec Ideal S512x256 .bf16) = (V c main_v0 : S512x256.Idx → Elt Ideal .bf16) := by
  obtain ⟨-, -, e0, e1, -⟩ := idx_facts t
  funext y
  unfold Gen.iblk0
  rw [View.read_apply]
  show (V c main_v0 : S512x256.Idx → Elt Ideal .bf16) _ = _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 256 + 1 * (y 1).val = (y 1).val; rw [e1]; omega

/-- The first bias's block at any point is the whole one-row array. -/
theorem iblk0_2_eq (c : Dev nD) (t : Fin cfg0.N) :
    (Gen.iblk0 V c 2 t : Vec Ideal S1x256 .f32) = (V c main_v2 : S1x256.Idx → Elt Ideal .f32) := by
  obtain ⟨-, -, -, -, e0, e1, -⟩ := idx_facts t
  funext y
  unfold Gen.iblk0
  rw [View.read_apply]
  show (V c main_v2 : S1x256.Idx → Elt Ideal .f32) _ = _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- The second weights' block at any point is the whole array. -/
theorem iblk0_3_eq (c : Dev nD) (t : Fin cfg0.N) :
    (Gen.iblk0 V c 3 t : Vec Ideal S256x64 .bf16) = (V c main_v1 : S256x64.Idx → Elt Ideal .bf16) := by
  obtain ⟨-, -, -, -, -, -, e0, e1, -⟩ := idx_facts t
  funext y
  unfold Gen.iblk0
  rw [View.read_apply]
  show (V c main_v1 : S256x64.Idx → Elt Ideal .bf16) _ = _
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 64 + 1 * (y 1).val = (y 1).val; rw [e1]; omega

/-- The second bias's block at any point is the whole one-row array. -/
theorem iblk0_4_eq (c : Dev nD) (t : Fin cfg0.N) :
    (Gen.iblk0 V c 4 t : Vec Ideal S1x64 .f32) = (V c main_v3 : S1x64.Idx → Elt Ideal .f32) := by
  obtain ⟨-, -, -, -, -, -, -, -, e0, e1, -⟩ := idx_facts t
  funext y
  unfold Gen.iblk0
  rw [View.read_apply]
  show (V c main_v3 : S1x64.Idx → Elt Ideal .f32) _ = _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- The stored value of a block whose features are rows T·2000 … T·2000 + 1999 of X is, entry by entry, the perceptron
    at those rows. -/
theorem blk_eq (X : S100000x512.Idx → EReal) (W1 : S512x256.Idx → EReal) (B1 : S1x256.Idx → EReal) (W2 : S256x64.Idx → EReal)
    (B2 : S1x64.Idx → EReal) (v0 : FVec Ideal S2000x512 .f32) (T : Nat)
    (h0 : ∀ (y : S2000x512.Idx) (i : S100000x512.Idx), (i 0).val = T * 2000 + (y 0).val → (i 1).val = (y 1).val → v0 y = X i)
    (j : S2000x64.Idx) (i : S100000x64.Idx) (hi0 : (i 0).val = T * 2000 + (j 0).val) (hi1 : (i 1).val = (j 1).val) :
    Gen.k0_pay1 (F := Ideal) v0 W1 B1 W2 B2 j = G X W1 B1 W2 B2 i := by
  obtain ⟨p, q, rfl⟩ : ∃ (p : Fin 2000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  have hx : ∀ j' : Fin 512, v0 (ix2 p j') = X (ix2 r j') := fun j' => h0 _ _ hi0 rfl
  refine (pay_apply v0 W1 B1 W2 B2 p s).trans ?_
  unfold G
  rw [Cert.Spec.mlp_ix2]
  unfold Cert.Spec.mlpAt Cert.Spec.hidden
  simp only [hx]

/-- What point t writes back is block t of the perceptron of the five window arrays as the region found them. -/
theorem flushed5_eq (c : Dev nD) (t : Fin cfg0.N) :
    (Gen.dat0 V c).flushed 5 t = ((cfg0.win 5).blk t).view.read (Elt Ideal)
      (G (V c main_arg0) (V c main_v0) (V c main_v2) (V c main_v1) (V c main_v3)) := by
  show (cfg0.win 5).cut (grid0.coords t) ((Gen.dat0 V c).after 5 t) = _
  rw [Gen.after0_5]
  unfold Gen.out0_5
  rw [View.canon_unit_zero hz]
  simp only [View.ld_unit_zero (S := S2000x512) hz, View.ld_unit_zero (S := S512x256) hz, View.ld_unit_zero (S := S1x256) hz,
    View.ld_unit_zero (S := S256x64) hz, View.ld_unit_zero (S := S1x64) hz]
  rw [iblk0_1_eq V c t, iblk0_2_eq V c t, iblk0_3_eq V c t, iblk0_4_eq V c t]
  obtain ⟨-, -, -, -, -, -, -, -, -, -, e0, e1, -⟩ := idx_facts t
  funext j
  refine blk_eq (V c main_arg0) (V c main_v0) (V c main_v2) (V c main_v1) (V c main_v3) (Gen.iblk0 V c 0 t) t.val
    (fun y i h0 h1 => iblk0_0_apply V c t y i h0 h1) j (((cfg0.win 5).blk t).view.emb j) ?_ ?_
  · show win0_5.index t (0 : Fin 2) * 2000 + 1 * (j 0).val = t.val * 2000 + (j 0).val
    rw [e0]; omega
  · show win0_5.index t (1 : Fin 2) * 64 + 1 * (j 1).val = (j 1).val
    rw [e1]; omega

/-- An index of the array is in point t's block iff each coordinate is in the block's range on its axis. -/
theorem mem_blk5 (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v4).slice (win0_5.rect t)).set ↔ _
  rw [View.set_slice_whole, Rect.mem_set_unit]
  exact Iff.rfl

/-- The blocks cover the array: row r lies in the block of point r / 2000. -/
theorem cover5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := by decide
  have ht : (i 0).val / 2000 < cfg0.N := by rw [hN]; omega
  obtain ⟨-, -, -, -, -, -, -, -, -, -, e0, e1, -⟩ := idx_facts ⟨(i 0).val / 2000, ht⟩
  refine ⟨⟨(i 0).val / 2000, ht⟩, Gen.flush0_5 _, ?_⟩
  rw [mem_blk5]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 64 ≤ (i 1).val ∧ (i 1).val < win0_5.index ⟨(i 0).val / 2000, ht⟩ (1 : Fin 2) * 64 + 64
    rw [e1]; omega

/-- After the region the output array holds the perceptron of the five window arrays as the region found them. -/
theorem arr5 (c : Dev nD) : (Gen.dat0 V c).arrAt 5 cfg0.N = G (V c main_arg0) (V c main_v0) (V c main_v2) (V c main_v1) (V c main_v3) :=
  (Gen.dat0 V c).arrAt_eq_of_cover 5 (G (V c main_arg0) (V c main_v0) (V c main_v2) (V c main_v1) (V c main_v3))
    (fun t _ => flushed5_eq V c t) cover5

end Region

/-! ## The windows' arrays at the region's entry, from the launch arguments -/

section Launch

variable (m : (ℓ : Loc nD τ sig) → Buf (Elt Ideal) ℓ) (ρ : Dev nD → PrngReg)

/-- The features are the first argument, untouched. -/
theorem V1_main_arg0 (c : Dev nD) :
    (Gen.V1 m ρ c main_arg0 : S100000x512.Idx → EReal) = m ((c : Thread nD τ).loc main_arg0) := by
  show StableHlo.after hostOps0 (Gen.W0 m ρ c) (Proc.devRef .tc main_arg0) = _
  after_results
  try rfl

/-- The first weights, converted to the narrower format: over the extended reals the same array. -/
theorem V1_main_v0 (c : Dev nD) :
    (Gen.V1 m ρ c main_v0 : S512x256.Idx → EReal) = m ((c : Thread nD τ).loc main_arg2) := by
  show StableHlo.after hostOps0 (Gen.W0 m ρ c) (Proc.devRef .tc main_v0) = _
  after_results
  try rfl

/-- The second weights, converted to the narrower format: over the extended reals the same array. -/
theorem V1_main_v1 (c : Dev nD) :
    (Gen.V1 m ρ c main_v1 : S256x64.Idx → EReal) = m ((c : Thread nD τ).loc main_arg4) := by
  show StableHlo.after hostOps0 (Gen.W0 m ρ c) (Proc.devRef .tc main_v1) = _
  after_results
  try rfl

/-- The first bias, viewed as a one-row array. -/
theorem V1_main_v2 (c : Dev nD) :
    (Gen.V1 m ρ c main_v2 : S1x256.Idx → EReal)
      = shapeCast S1x256 (m ((c : Thread nD τ).loc main_arg3) : S256.Idx → EReal) shapeCasts_S256_S1x256 := by
  show StableHlo.after hostOps0 (Gen.W0 m ρ c) (Proc.devRef .tc main_v2) = _
  after_results
  try rfl

/-- The second bias, viewed as a one-row array. -/
theorem V1_main_v3 (c : Dev nD) :
    (Gen.V1 m ρ c main_v3 : S1x64.Idx → EReal)
      = shapeCast S1x64 (m ((c : Thread nD τ).loc main_arg5) : S64.Idx → EReal) shapeCasts_S64_S1x64 := by
  show StableHlo.after hostOps0 (Gen.W0 m ρ c) (Proc.devRef .tc main_v3) = _
  after_results
  try rfl

/-- A vector viewed as a one-row array and read back along that row is the vector. -/
theorem row_cast_eq {b : ℕ} (x : (⟨1, ![b]⟩ : Shape).Idx → EReal) (h : (⟨1, ![b]⟩ : Shape).ShapeCasts ⟨2, ![1, b]⟩) :
    (fun i : (⟨1, ![b]⟩ : Shape).Idx => shapeCast ⟨2, ![1, b]⟩ x h (ix2 (0 : Fin 1) (i 0))) = x :=
  funext fun i => (Cert.LibRowLayout.shapeCast_b_1b_apply x h 0 (i 0)).trans (congrArg x (eq_ix1 i).symm)

end Launch

/-- After pallas_call 0 the array main_v4 holds the perceptron of the launch arguments. -/
theorem w2_main_v4 (m : (ℓ : Loc nD τ sig) → Buf (Elt Ideal) ℓ) (ρ : Dev nD → PrngReg) (c : Dev nD) :
    Gen.W2 (F := Ideal) m ρ c (Proc.devRef .tc main_v4)
      = Cert.Spec.mlp (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  refine (Gen.W2_arr m ρ c 5).trans ?_
  refine (arr5 (Gen.V1 m ρ) c).trans ?_
  rw [V1_main_arg0 m ρ c, V1_main_v0 m ρ c, V1_main_v1 m ρ c, V1_main_v2 m ρ c, V1_main_v3 m ρ c]
  have h1 := row_cast_eq (m ((c.tc : Thread nD τ).loc main_arg3)) shapeCasts_S256_S1x256
  have h2 := row_cast_eq (m ((c.tc : Thread nD τ).loc main_arg5)) shapeCasts_S64_S1x64
  unfold G
  rw [h1, h2]

end Cert.KernelIdeal.MlpValue

end
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LsmEntry.lean ====
/-
  The log-softmax kernel's stored value, read at one entry of its block.

  For a block `x` of 2000 rows by 64 columns the body computes, entry by entry,
      (x[p, q] − M_p) − log Σ_j exp(x[p, j] − M_p),      M_p = the fold of `max` from −∞ over row p of the block.
  The row maximum and the row sum are each a reduction along the columns, kept as a one-column array and spread
  back across the columns; each of these steps is read at the entry (p, q).
-/
import proofs.«154835_j58188216926735_1_alg».proof.Proof.Gen.KernelIdeal.Skeleton
import proofs.«154835_j58188216926735_1_alg».proof.Proof.LibRowMax
import proofs.«154835_j58188216926735_1_alg».proof.Proof.LibKeepdims

noncomputable section

open scoped BigOperators

namespace Cert.KernelIdeal.LsmEntry

open Cert.KernelIdeal Cert.KernelIdeal.Gen Idealize.ShloMosaic Idealize.ShloMosaic.ValueIdx

/-- The largest entry of row `p` of a block: the fold of `max` from −∞ over the row. -/
def blkMax (x : FVec Ideal S2000x64 .f32) (p : Fin 2000) : EReal :=
  (Finset.univ : Finset (Fin 64)).fold max ⊥ (fun j => x (ix2 p j))

/-- Entry (p, q) of the row-wise log-softmax of a block. -/
def blkLsm (x : FVec Ideal S2000x64 .f32) (p : Fin 2000) (q : Fin 64) : EReal :=
  (x (ix2 p q) - blkMax x p) - Ideal.log (∑ j : Fin 64, Ideal.exp (x (ix2 p j) - blkMax x p))

/-- The row maximum, kept as a column and spread across the columns, reads the row's maximum at every entry of the row. -/
theorem rowMax_spread (x : FVec Ideal S2000x64 .f32) (hr : S2000x64.Reduces [1] S2000) (hc : S2000.ShapeCasts S2000x1)
    (hb : S2000x1.Broadcasts S2000x64) (hφ : FKind.Formats .f32)
    (hmax : (0xFF800000#32 : BitVec 32) = FKind.maximumf.neutral .f32 hφ) (p : Fin 2000) (q : Fin 64) :
    broadcastTo S2000x64 (shapeCast S2000x1 (multiReduction .maximumf [1] S2000 x 0xFF800000#32 hr hφ hmax) hc) hb (ix2 p q)
      = blkMax x p :=
  (Cert.LibKeepdims.broadcastTo_a1_ab_apply _ hb p q).trans
    ((Cert.LibKeepdims.shapeCast_a_a1_apply _ hc p 0).trans
      (Cert.LibRowMax.multiReduction_max_rows_apply x hr hφ hmax p))

/-- The logarithm of the row sum, kept as a column and spread across the columns, reads at every entry of the row the
    logarithm of the sum of the row. -/
theorem logRowSum_spread (y : FVec Ideal S2000x64 .f32) (hr : S2000x64.Reduces [1] S2000) (hc : S2000.ShapeCasts S2000x1)
    (hb : S2000x1.Broadcasts S2000x64) (hφ : FKind.Formats .f32)
    (hadd : (0x00000000#32 : BitVec 32) = FKind.add.neutral .f32 hφ) (p : Fin 2000) (q : Fin 64) :
    broadcastTo S2000x64 (log (shapeCast S2000x1 (multiReduction .add [1] S2000 y 0x00000000#32 hr hφ hadd) hc)) hb (ix2 p q)
      = Ideal.log (∑ j : Fin 64, y (ix2 p j)) :=
  (Cert.LibKeepdims.broadcastTo_a1_ab_apply _ hb p q).trans
    (congrArg Ideal.log ((Cert.LibKeepdims.shapeCast_a_a1_apply _ hc p 0).trans
      (Cert.LibKeepdims.multiReduction_add_rows_apply y hr hφ hadd p)))

/-- The composed body at entry (p, q), with the side conditions of its layout steps as variables. -/
theorem lsm_entry (x : FVec Ideal S2000x64 .f32) (hr : S2000x64.Reduces [1] S2000) (hc : S2000.ShapeCasts S2000x1)
    (hb : S2000x1.Broadcasts S2000x64) (hφ : FKind.Formats .f32)
    (hmax : (0xFF800000#32 : BitVec 32) = FKind.maximumf.neutral .f32 hφ)
    (hadd : (0x00000000#32 : BitVec 32) = FKind.add.neutral .f32 hφ) (p : Fin 2000) (q : Fin 64) :
    subf (subf x (broadcastTo S2000x64 (shapeCast S2000x1 (multiReduction .maximumf [1] S2000 x 0xFF800000#32 hr hφ hmax) hc) hb))
        (broadcastTo S2000x64 (log (shapeCast S2000x1 (multiReduction .add [1] S2000
          (exp (subf x (broadcastTo S2000x64 (shapeCast S2000x1 (multiReduction .maximumf [1] S2000 x 0xFF800000#32 hr hφ hmax) hc) hb)))
          0x00000000#32 hr hφ hadd) hc)) hb) (ix2 p q)
      = blkLsm x p q := by
  rw [subf_apply, subf_apply, rowMax_spread, logRowSum_spread]
  unfold blkLsm
  refine congrArg (fun s => (x (ix2 p q) - blkMax x p) - Ideal.log s) (Finset.sum_congr rfl fun j _ => ?_)
  show FloatOps.exp (subf x _ (ix2 p j)) = _
  rw [subf_apply, rowMax_spread, Ideal.exp_def]

/-- THE STORED VALUE AT AN ENTRY: the row-wise log-softmax of the loaded block. -/
theorem pay_ix2 (x : FVec Ideal S2000x64 .f32) (p : Fin 2000) (q : Fin 64) :
    k1_pay1 (F := Ideal) x (ix2 p q) = blkLsm x p q := by
  unfold k1_pay1
  simp only [shapeCast_self]
  exact lsm_entry x _ _ _ _ _ _ p q

end Cert.KernelIdeal.LsmEntry

end
-- ==== Proof.LsmKernel.lean ====
/-
  The log-softmax kernel's output array after its run.

  Each grid point t loads rows 2000·t … 2000·t + 1999 of the input array, stores their row-wise log-softmax, and the
  pipeline writes that block back to the same rows of the output array. A row's maximum and a row's sum only read
  entries of that row, which lie in the same block, so each written block is the corresponding block of the log-softmax of
  the whole input array; the fifty blocks cover the array.
-/
import proofs.«154835_j58188216926735_1_alg».proof.Proof.Gen.KernelIdeal.Frame
import proofs.«154835_j58188216926735_1_alg».proof.Proof.Spec
import proofs.«154835_j58188216926735_1_alg».proof.Proof.LsmEntry
import Idealize.ShloMosaic.Lib.Pipeline.Value

noncomputable section

open scoped BigOperators

namespace Cert.KernelIdeal.LsmValue

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets : (![0, 0] : Fin 2 → Nat) = fun _ => 0 := funext fun a => by fin_cases a <;> rfl

/-- Both windows' block index at point `t` is (t, 0). -/
theorem block_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

theorem point_lt (t : Fin cfg1.N) : t.val < 50 := Nat.lt_of_lt_of_eq t.isLt N_1

/-- The log-softmax of a block whose rows are rows 2000·t … of an array is the array's log-softmax at those rows. -/
theorem blkLsm_of_rows (A : Cert.Spec.SH.Idx → EReal) (x : FVec Ideal S2000x64 .f32) (t : ℕ) (ht : t < 50)
    (hx : ∀ (p : Fin 2000) (q : Fin 64), x (ix2 p q) = A (ix2 (⟨2000 * t + p.val, by omega⟩ : Fin 100000) q))
    (p : Fin 2000) (q : Fin 64) :
    LsmEntry.blkLsm x p q = Cert.Spec.lsmAt A (⟨2000 * t + p.val, by omega⟩ : Fin 100000) q := by
  unfold LsmEntry.blkLsm Cert.Spec.lsmAt LsmEntry.blkMax Cert.Spec.rowMax
  simp only [hx]

section
variable (V : (c : Dev nD) → (b : Ref sig .tc) → Buf (Elt Ideal) ((c : Thread nD τ).loc b))

/-- The input window's block at point `t` is rows 2000·t … 2000·t + 1999 of the input array. -/
theorem iblk_apply (c : Dev nD) (t : Fin cfg1.N) (p : Fin 2000) (q : Fin 64) :
    (iblk1 V c 0 t : FVec Ideal S2000x64 .f32) (ix2 p q)
      = (V c main_v125 : Cert.Spec.SH.Idx → EReal) (ix2 (⟨2000 * t.val + p.val, by have := point_lt t; omega⟩ : Fin 100000) q) := by
  obtain ⟨e0, e1, -, -⟩ := block_index t
  unfold iblk1
  show V c main_v125 (((cfg1.win 0).blk t).view.emb (ix2 p q)) = _
  refine congrArg (V c main_v125) (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 64 + 1 * q.val = q.val; rw [e1]; omega

/-- Entry (p, q) of the output window's block at point `t` sits at row 2000·t + p, column q of the output array. -/
theorem oblk_emb (t : Fin cfg1.N) (p : Fin 2000) (q : Fin 64) :
    ((cfg1.win 1).blk t).view.emb (ix2 p q)
      = (ix2 (⟨2000 * t.val + p.val, by have := point_lt t; omega⟩ : Fin 100000) q : S100000x64.Idx) := by
  obtain ⟨-, -, e0, e1⟩ := block_index t
  funext a
  apply Fin.ext
  match a with
  | ⟨0, _⟩ => show win1_1.index t (0 : Fin 2) * 2000 + 1 * p.val = 2000 * t.val + p.val; rw [e0]; omega
  | ⟨1, _⟩ => show win1_1.index t (1 : Fin 2) * 64 + 1 * q.val = q.val; rw [e1]; omega

/-- WHAT POINT `t` WRITES BACK is block `t` of the log-softmax of the input array as the region finds it. -/
theorem flushed_eq (c : Dev nD) (t : Fin cfg1.N) :
    (dat1 V c).flushed 1 t = ((cfg1.win 1).blk t).view.read (Elt Ideal) (Cert.Spec.logSoftmax (V c main_v125)) := by
  show (cfg1.win 1).cut (grid1.coords t) ((dat1 V c).after 1 t) = _
  rw [after1_1]
  unfold out1_1
  rw [View.canon_unit_zero zero_offsets]
  simp only [View.ld_unit_zero (S := S2000x64) zero_offsets]
  funext j
  obtain ⟨p, q, rfl⟩ : ∃ (p : Fin 2000) (q : Fin 64), j = ix2 p q := ⟨j 0, j 1, eq_ix2 j⟩
  show k1_pay1 (F := Ideal) (iblk1 V c 0 t) (ix2 p q)
    = Cert.Spec.logSoftmax (V c main_v125) (((cfg1.win 1).blk t).view.emb (ix2 p q))
  rw [oblk_emb t p q, Cert.Spec.logSoftmax_ix2]
  refine (LsmEntry.pay_ix2 (iblk1 V c 0 t) p q).trans ?_
  exact blkLsm_of_rows (V c main_v125) (iblk1 V c 0 t) t.val (point_lt t) (iblk_apply V c t) p q

/-- An index of the array is in point `t`'s block iff each coordinate is in the block's range on its axis. -/
theorem mem_blk (t : Fin cfg1.N) (i : S100000x64.Idx) :
    i ∈ ((cfg1.win 1).blk t).view.set ↔ ∀ a : Fin 2, win1_1.index t a * S2000x64.size a ≤ (i a).val
      ∧ (i a).val < win1_1.index t a * S2000x64.size a + S2000x64.size a := by
  show i ∈ ((View.whole main_v126).slice (win1_1.rect t)).set ↔ _
  rw [View.set_slice_whole, Rect.mem_set_unit]
  exact Iff.rfl

/-- Row `r` of the output array is written back by point r / 2000. -/
theorem cover (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  have hN : cfg1.N = 50 := N_1
  refine ⟨⟨(i 0).val / 2000, Nat.lt_of_lt_of_eq (by omega) hN.symm⟩, flush1_1 _, ?_⟩
  obtain ⟨-, -, e0, e1⟩ := block_index ⟨(i 0).val / 2000, Nat.lt_of_lt_of_eq (by omega) hN.symm⟩
  rw [mem_blk]
  intro a
  match a with
  | ⟨0, _⟩ =>
    show win1_1.index ⟨(i 0).val / 2000, _⟩ (0 : Fin 2) * 2000 ≤ (i 0).val
      ∧ (i 0).val < win1_1.index ⟨(i 0).val / 2000, _⟩ (0 : Fin 2) * 2000 + 2000
    rw [e0]
    show (i 0).val / 2000 * 2000 ≤ (i 0).val ∧ (i 0).val < (i 0).val / 2000 * 2000 + 2000
    omega
  | ⟨1, _⟩ =>
    show win1_1.index ⟨(i 0).val / 2000, _⟩ (1 : Fin 2) * 64 ≤ (i 1).val
      ∧ (i 1).val < win1_1.index ⟨(i 0).val / 2000, _⟩ (1 : Fin 2) * 64 + 64
    rw [e1]
    omega

/-- After pallas_call 1, whatever its entry contents V, the output array is the row-wise log-softmax of the input array. -/
theorem arr_main_v126 (V : (c : Dev nD) → (b : Ref sig .tc) → Buf (Elt Ideal) ((c : Thread nD τ).loc b)) (c : Dev nD) :
    (Gen.dat1 (F := Ideal) V c).arrAt 1 cfg1.N = Cert.Spec.logSoftmax (V c main_v125) :=
  (dat1 V c).arrAt_eq_of_cover 1 (Cert.Spec.logSoftmax (V c main_v125)) (fun t _ => flushed_eq V c t) cover

end

end Cert.KernelIdeal.LsmValue

end
-- ==== Proof.LibAfterAppend.lean ====
/-
  The contents after two lines of host operations run one after the other are the second line's contents over the
  first line's: the fold over a concatenated list is the composition of the folds. General: nothing here depends on a
  program.
-/
import Idealize.ShloMosaic.Lib.StableHlo.Run

namespace Cert.LibAfterAppend

open Idealize.ShloMosaic Idealize.ShloMosaic.StableHlo

variable {τ : Topo} {sig : RefSig} {Val : EltTy → Type}

/-- Running `l₁` then `l₂` from contents `V` is running `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.RefRun.lean ====
/-
  The reference program's run, read back.

  The reference is a straight line of host operations: the perceptron, the graph propagation, the log-softmax. Its
  operations are listed in order in five pieces (a called function's operations stand at its call); the program is the
  sequence of the whole list; every weakly fair execution terminates with each buffer at the fold of the operations'
  results over its launch contents.
-/
import proofs.«154835_j58188216926735_1_alg».proof.ReferenceIdeal
import proofs.«154835_j58188216926735_1_alg».proof.Proof.Gen.ReferenceIdeal
import proofs.«154835_j58188216926735_1_alg».proof.Proof.LibAfterAppend
import Idealize.ShloMosaic.Lib.StableHlo.Run

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The perceptron: two products, each with its bias spread over the rows, the maximum with zero between them. -/
abbrev opsMlp : List (HloOp τ sig (Elt F)) :=
  [ binary main_arg0 main_arg2 main_v0 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg3 main_v1 (broadcastInDim S1x256 ![1] bcast_S256_S1x256_1 : (⟨S256, .f32⟩ : BufTy).Contents (Elt F) → (⟨S1x256, .f32⟩ : BufTy).Contents (Elt F)),
    unary main_v1 main_v2 (broadcastInDim S100000x256 ![0, 1] bcast_S1x256_S100000x256_0_1 : (⟨S1x256, .f32⟩ : BufTy).Contents (Elt F) → (⟨S100000x256, .f32⟩ : BufTy).Contents (Elt F)),
    binary main_v0 main_v2 main_v3 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v3) (TRef.of (T := ⟨S100000x256, .f32⟩) main_call0_v0) (TRef.of (T := ⟨S100000x256, .f32⟩) main_v4) maximumf,
    binary main_v4 main_arg4 main_v5 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg5 main_v6 (broadcastInDim S1x64 ![1] bcast_S64_S1x64_1 : (⟨S64, .f32⟩ : BufTy).Contents (Elt F) → (⟨S1x64, .f32⟩ : BufTy).Contents (Elt F)),
    unary main_v6 main_v7 (broadcastInDim S100000x64 ![0, 1] bcast_S1x64_S100000x64_0_1 : (⟨S1x64, .f32⟩ : BufTy).Contents (Elt F) → (⟨S100000x64, .f32⟩ : BufTy).Contents (Elt F)),
    binary main_v5 main_v7 main_v8 (addf : (⟨S100000x64, .f32⟩ : BufTy).Contents (Elt F) → (⟨S100000x64, .f32⟩ : BufTy).Contents (Elt F) → (⟨S100000x64, .f32⟩ : BufTy).Contents (Elt F)) ]
theorem opsMlp_sub : (opsMlp : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsMlp_fresh : (opsMlp : List (HloOp τ sig (Elt F))).Forall fun op => op.fresh = ∅ := by
  simp only [List.Forall]; repeat' constructor

/-- The edges' sources and targets, the ones, the degrees, their comparison with zero and their inverse square roots. -/
abbrev opsEnds : List (HloOp τ sig (Elt F)) :=
  [ nullary main_v9 (iotaInDim S100000 32 0),
    unary main_arg1 main_v10 ((extractStridedSlice S1x3200000 ![0, 0] · slices_S2x3200000_S1x3200000_0_0) : (⟨S2x3200000, .i32⟩ : BufTy).Contents (Elt F) → (⟨S1x3200000, .i32⟩ : BufTy).Contents (Elt F)),
    reshape main_v10 main_v11 rfl shapeCasts_S1x3200000_S3200000,
    binary main_v11 main_v9 main_v12 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v13 ((extractStridedSlice S1x3200000 ![1, 0] · slices_S2x3200000_S1x3200000_1_0) : (⟨S2x3200000, .i32⟩ : BufTy).Contents (Elt F) → (⟨S1x3200000, .i32⟩ : BufTy).Contents (Elt F)),
    reshape main_v13 main_v14 rfl shapeCasts_S1x3200000_S3200000,
    binary main_v14 main_v9 main_v15 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v16 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v17 (broadcastInDim S100000 ![] bcast_S_S100000 : (⟨S_, .f32⟩ : BufTy).Contents (Elt F) → (⟨S100000, .f32⟩ : BufTy).Contents (Elt F)),
    unary main_v15 main_v18 (broadcastInDim S3300000x1 ![0] bcast_S3300000_S3300000x1_0 : (⟨S3300000, .i32⟩ : BufTy).Contents (Elt F) → (⟨S3300000x1, .i32⟩ : BufTy).Contents (Elt F)),
    ternary main_v17 main_v18 main_v16 main_v19 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v20 (broadcastInDim S100000 ![] bcast_S_S100000 : (⟨S_, .f32⟩ : BufTy).Contents (Elt F) → (⟨S100000, .f32⟩ : BufTy).Contents (Elt F)),
    binary main_v19 main_v20 main_v21 (cmpf .ogt : (⟨S100000, .f32⟩ : BufTy).Contents (Elt F) → (⟨S100000, .f32⟩ : BufTy).Contents (Elt F) → (⟨S100000, .i1⟩ : BufTy).Contents (Elt F)),
    unary main_v19 main_v22 (Host.rsqrt : (⟨S100000, .f32⟩ : BufTy).Contents (Elt F) → (⟨S100000, .f32⟩ : BufTy).Contents (Elt F)),
    nullary main_cst_2 (constant S_ .f32 0x00000000#32) ]
theorem opsEnds_sub : (opsEnds : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩
theorem opsEnds_fresh : (opsEnds : List (HloOp τ sig (Elt F))).Forall fun op => op.fresh = ∅ := by
  simp only [List.Forall]; repeat' constructor

/-- The inlined select: the weights. -/
abbrev opsWhere : List (HloOp τ sig (Elt F)) :=
  [ TRef.unary (TRef.of (T := ⟨S_, .f32⟩) main_cst_2) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v21) (TRef.of (T := ⟨S100000, .f32⟩) main_v22) (TRef.of (T := ⟨S100000, .f32⟩) main_call1_v1) (TRef.of (T := ⟨S100000, .f32⟩) main_v23) select ]
theorem opsWhere_sub : (opsWhere : List (HloOp τ sig (Elt F))).Forall fun op => op.bufs ⊆ tcRefs τ sig :=
  ⟨unary_bufs_sub .., unary_bufs_sub .., ternary_bufs_sub ..⟩
theorem opsWhere_fresh : (opsWhere : List (HloOp τ sig (Elt F))).Forall fun op => op.fresh = ∅ := by
  simp only [List.Forall]; repeat' constructor

/-- The coefficients and the five rounds of propagation. -/
abbrev opsRounds : List (HloOp τ sig (Elt F)) :=
  [ nullary main_c (constantI S_ 32 0#32),
    unary main_c main_v24 (broadcastInDim S3300000 ![] bcast_S_S3300000 : (⟨S_, .i32⟩ : BufTy).Contents (Elt F) → (⟨S3300000, .i32⟩ : BufTy).Contents (Elt F)),
    binary main_v12 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v26 (broadcastInDim S3300000 ![] bcast_S_S3300000 : (⟨S_, .i32⟩ : BufTy).Contents (Elt F) → (⟨S3300000, .i32⟩ : BufTy).Contents (Elt F)),
    binary main_v12 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v12 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v23 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v30 main_v16 main_v31 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v32 (broadcastInDim S3300000 ![] bcast_S_S3300000 : (⟨S_, .i32⟩ : BufTy).Contents (Elt F) → (⟨S3300000, .i32⟩ : BufTy).Contents (Elt F)),
    binary main_v15 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v34 (broadcastInDim S3300000 ![] bcast_S_S3300000 : (⟨S_, .i32⟩ : BufTy).Contents (Elt F) → (⟨S3300000, .i32⟩ : BufTy).Contents (Elt F)),
    binary main_v15 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v15 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v23 main_v37 main_v38 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v31 main_v38 main_v39 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v40 (broadcastInDim S3300000 ![] bcast_S_S3300000 : (⟨S_, .i32⟩ : BufTy).Contents (Elt F) → (⟨S3300000, .i32⟩ : BufTy).Contents (Elt F)),
    binary main_v12 main_v40 main_v41 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v42 (broadcastInDim S3300000 ![] bcast_S_S3300000 : (⟨S_, .i32⟩ : BufTy).Contents (Elt F) → (⟨S3300000, .i32⟩ : BufTy).Contents (Elt F)),
    binary main_v12 main_v42 main_v43 (addi : (⟨S3300000, .i32⟩ : BufTy).Contents (Elt F) → (⟨S3300000, .i32⟩ : BufTy).Contents (Elt F) → (⟨S3300000, .i32⟩ : BufTy).Contents (Elt F)),
    ternary main_v41 main_v43 main_v12 main_v44 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v44 main_v45 (broadcastInDim S3300000x1 ![0] bcast_S3300000_S3300000x1_0 : (⟨S3300000, .i32⟩ : BufTy).Contents (Elt F) → (⟨S3300000x1, .i32⟩ : BufTy).Contents (Elt F)),
    binary main_v8 main_v45 main_v46 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v39 main_v47 (broadcastInDim S3300000x1 ![0] bcast_S3300000_S3300000x1_0 : (⟨S3300000, .f32⟩ : BufTy).Contents (Elt F) → (⟨S3300000x1, .f32⟩ : BufTy).Contents (Elt F)),
    unary main_v47 main_v48 (broadcastInDim S3300000x64 ![0, 1] bcast_S3300000x1_S3300000x64_0_1 : (⟨S3300000x1, .f32⟩ : BufTy).Contents (Elt F) → (⟨S3300000x64, .f32⟩ : BufTy).Contents (Elt F)),
    binary main_v46 main_v48 main_v49 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v50 (broadcastInDim S100000x64 ![] bcast_S_S100000x64 : (⟨S_, .f32⟩ : BufTy).Contents (Elt F) → (⟨S100000x64, .f32⟩ : BufTy).Contents (Elt F)),
    unary main_v15 main_v51 (broadcastInDim S3300000x1 ![0] bcast_S3300000_S3300000x1_0 : (⟨S3300000, .i32⟩ : BufTy).Contents (Elt F) → (⟨S3300000x1, .i32⟩ : BufTy).Contents (Elt F)),
    ternary main_v50 main_v51 main_v49 main_v52 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    nullary main_cst_9 (constant S_ .f32 0x3F666666#32),
    unary main_cst_9 main_v53 (broadcastInDim S100000x64 ![] bcast_S_S100000x64 : (⟨S_, .f32⟩ : BufTy).Contents (Elt F) → (⟨S100000x64, .f32⟩ : BufTy).Contents (Elt F)),
    binary main_v53 main_v52 main_v54 (mulf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3DCCCCCD#32),
    unary main_cst_10 main_v55 (broadcastInDim S100000x64 ![] bcast_S_S100000x64 : (⟨S_, .f32⟩ : BufTy).Contents (Elt F) → (⟨S100000x64, .f32⟩ : BufTy).Contents (Elt F)),
    binary main_v55 main_v8 main_v56 (mulf : (⟨S100000x64, .f32⟩ : BufTy).Contents (Elt F) → (⟨S100000x64, .f32⟩ : BufTy).Contents (Elt F) → (⟨S100000x64, .f32⟩ : BufTy).Contents (Elt F)),
    binary main_v54 main_v56 main_v57 (addf : (⟨S100000x64, .f32⟩ : BufTy).Contents (Elt F) → (⟨S100000x64, .f32⟩ : BufTy).Contents (Elt F) → (⟨S100000x64, .f32⟩ : BufTy).Contents (Elt F)),
    nullary main_c_11 (constantI S_ 32 0#32),
    unary main_c_11 main_v58 (broadcastInDim S3300000 ![] bcast_S_S3300000 : (⟨S_, .i32⟩ : BufTy).Contents (Elt F) → (⟨S3300000, .i32⟩ : BufTy).Contents (Elt F)),
    binary main_v12 main_v58 main_v59 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v60 (broadcastInDim S3300000 ![] bcast_S_S3300000 : (⟨S_, .i32⟩ : BufTy).Contents (Elt F) → (⟨S3300000, .i32⟩ : BufTy).Contents (Elt F)),
    binary main_v12 main_v60 main_v61 (addi : (⟨S3300000, .i32⟩ : BufTy).Contents (Elt F) → (⟨S3300000, .i32⟩ : BufTy).Contents (Elt F) → (⟨S3300000, .i32⟩ : BufTy).Contents (Elt F)),
    ternary main_v59 main_v61 main_v12 main_v62 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v62 main_v63 (broadcastInDim S3300000x1 ![0] bcast_S3300000_S3300000x1_0 : (⟨S3300000, .i32⟩ : BufTy).Contents (Elt F) → (⟨S3300000x1, .i32⟩ : BufTy).Contents (Elt F)),
    binary main_v57 main_v63 main_v64 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v39 main_v65 (broadcastInDim S3300000x1 ![0] bcast_S3300000_S3300000x1_0 : (⟨S3300000, .f32⟩ : BufTy).Contents (Elt F) → (⟨S3300000x1, .f32⟩ : BufTy).Contents (Elt F)),
    unary main_v65 main_v66 (broadcastInDim S3300000x64 ![0, 1] bcast_S3300000x1_S3300000x64_0_1 : (⟨S3300000x1, .f32⟩ : BufTy).Contents (Elt F) → (⟨S3300000x64, .f32⟩ : BufTy).Contents (Elt F)),
    binary main_v64 main_v66 main_v67 (mulf : (⟨S3300000x64, .f32⟩ : BufTy).Contents (Elt F) → (⟨S3300000x64, .f32⟩ : BufTy).Contents (Elt F) → (⟨S3300000x64, .f32⟩ : BufTy).Contents (Elt F)),
    nullary main_cst_13 (constant S_ .f32 0x00000000#32),
    unary main_cst_13 main_v68 (broadcastInDim S100000x64 ![] bcast_S_S100000x64 : (⟨S_, .f32⟩ : BufTy).Contents (Elt F) → (⟨S100000x64, .f32⟩ : BufTy).Contents (Elt F)),
    unary main_v15 main_v69 (broadcastInDim S3300000x1 ![0] bcast_S3300000_S3300000x1_0 : (⟨S3300000, .i32⟩ : BufTy).Contents (Elt F) → (⟨S3300000x1, .i32⟩ : BufTy).Contents (Elt F)),
    ternary main_v68 main_v69 main_v67 main_v70 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    nullary main_cst_14 (constant S_ .f32 0x3F666666#32),
    unary main_cst_14 main_v71 (broadcastInDim S100000x64 ![] bcast_S_S100000x64 : (⟨S_, .f32⟩ : BufTy).Contents (Elt F) → (⟨S100000x64, .f32⟩ : BufTy).Contents (Elt F)),
    binary main_v71 main_v70 main_v72 (mulf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3DCCCCCD#32),
    unary main_cst_15 main_v73 (broadcastInDim S100000x64 ![] bcast_S_S100000x64 : (⟨S_, .f32⟩ : BufTy).Contents (Elt F) → (⟨S100000x64, .f32⟩ : BufTy).Contents (Elt F)),
    binary main_v73 main_v8 main_v74 (mulf : (⟨S100000x64, .f32⟩ : BufTy).Contents (Elt F) → (⟨S100000x64, .f32⟩ : BufTy).Contents (Elt F) → (⟨S100000x64, .f32⟩ : BufTy).Contents (Elt F)),
    binary main_v72 main_v74 main_v75 (addf : (⟨S100000x64, .f32⟩ : BufTy).Contents (Elt F) → (⟨S100000x64, .f32⟩ : BufTy).Contents (Elt F) → (⟨S100000x64, .f32⟩ : BufTy).Contents (Elt F)),
    nullary main_c_16 (constantI S_ 32 0#32),
    unary main_c_16 main_v76 (broadcastInDim S3300000 ![] bcast_S_S3300000 : (⟨S_, .i32⟩ : BufTy).Contents (Elt F) → (⟨S3300000, .i32⟩ : BufTy).Contents (Elt F)),
    binary main_v12 main_v76 main_v77 (cmpi .slt : (⟨S3300000, .i32⟩ : BufTy).Contents (Elt F) → (⟨S3300000, .i32⟩ : BufTy).Contents (Elt F) → (⟨S3300000, .i1⟩ : BufTy).Contents (Elt F)),
    nullary main_c_17 (constantI S_ 32 100000#32),
    unary main_c_17 main_v78 (broadcastInDim S3300000 ![] bcast_S_S3300000 : (⟨S_, .i32⟩ : BufTy).Contents (Elt F) → (⟨S3300000, .i32⟩ : BufTy).Contents (Elt F)),
    binary main_v12 main_v78 main_v79 (addi : (⟨S3300000, .i32⟩ : BufTy).Contents (Elt F) → (⟨S3300000, .i32⟩ : BufTy).Contents (Elt F) → (⟨S3300000, .i32⟩ : BufTy).Contents (Elt F)),
    ternary main_v77 main_v79 main_v12 main_v80 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v80 main_v81 (broadcastInDim S3300000x1 ![0] bcast_S3300000_S3300000x1_0 : (⟨S3300000, .i32⟩ : BufTy).Contents (Elt F) → (⟨S3300000x1, .i32⟩ : BufTy).Contents (Elt F)),
    binary main_v75 main_v81 main_v82 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v39 main_v83 (broadcastInDim S3300000x1 ![0] bcast_S3300000_S3300000x1_0 : (⟨S3300000, .f32⟩ : BufTy).Contents (Elt F) → (⟨S3300000x1, .f32⟩ : BufTy).Contents (Elt F)),
    unary main_v83 main_v84 (broadcastInDim S3300000x64 ![0, 1] bcast_S3300000x1_S3300000x64_0_1 : (⟨S3300000x1, .f32⟩ : BufTy).Contents (Elt F) → (⟨S3300000x64, .f32⟩ : BufTy).Contents (Elt F)),
    binary main_v82 main_v84 main_v85 (mulf : (⟨S3300000x64, .f32⟩ : BufTy).Contents (Elt F) → (⟨S3300000x64, .f32⟩ : BufTy).Contents (Elt F) → (⟨S3300000x64, .f32⟩ : BufTy).Contents (Elt F)),
    nullary main_cst_18 (constant S_ .f32 0x00000000#32),
    unary main_cst_18 main_v86 (broadcastInDim S100000x64 ![] bcast_S_S100000x64 : (⟨S_, .f32⟩ : BufTy).Contents (Elt F) → (⟨S100000x64, .f32⟩ : BufTy).Contents (Elt F)),
    unary main_v15 main_v87 (broadcastInDim S3300000x1 ![0] bcast_S3300000_S3300000x1_0 : (⟨S3300000, .i32⟩ : BufTy).Contents (Elt F) → (⟨S3300000x1, .i32⟩ : BufTy).Contents (Elt F)),
    ternary main_v86 main_v87 main_v85 main_v88 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    nullary main_cst_19 (constant S_ .f32 0x3F666666#32),
    unary main_cst_19 main_v89 (broadcastInDim S100000x64 ![] bcast_S_S100000x64 : (⟨S_, .f32⟩ : BufTy).Contents (Elt F) → (⟨S100000x64, .f32⟩ : BufTy).Contents (Elt F)),
    binary main_v89 main_v88 main_v90 (mulf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x3DCCCCCD#32),
    unary main_cst_20 main_v91 (broadcastInDim S100000x64 ![] bcast_S_S100000x64 : (⟨S_, .f32⟩ : BufTy).Contents (Elt F) → (⟨S100000x64, .f32⟩ : BufTy).Contents (Elt F)),
    binary main_v91 main_v8 main_v92 (mulf : (⟨S100000x64, .f32⟩ : BufTy).Contents (Elt F) → (⟨S100000x64, .f32⟩ : BufTy).Contents (Elt F) → (⟨S100000x64, .f32⟩ : BufTy).Contents (Elt F)),
    binary main_v90 main_v92 main_v93 (addf : (⟨S100000x64, .f32⟩ : BufTy).Contents (Elt F) → (⟨S100000x64, .f32⟩ : BufTy).Contents (Elt F) → (⟨S100000x64, .f32⟩ : BufTy).Contents (Elt F)),
    nullary main_c_21 (constantI S_ 32 0#32),
    unary main_c_21 main_v94 (broadcastInDim S3300000 ![] bcast_S_S3300000 : (⟨S_, .i32⟩ : BufTy).Contents (Elt F) → (⟨S3300000, .i32⟩ : BufTy).Contents (Elt F)),
    binary main_v12 main_v94 main_v95 (cmpi .slt : (⟨S3300000, .i32⟩ : BufTy).Contents (Elt F) → (⟨S3300000, .i32⟩ : BufTy).Contents (Elt F) → (⟨S3300000, .i1⟩ : BufTy).Contents (Elt F)),
    nullary main_c_22 (constantI S_ 32 100000#32),
    unary main_c_22 main_v96 (broadcastInDim S3300000 ![] bcast_S_S3300000 : (⟨S_, .i32⟩ : BufTy).Contents (Elt F) → (⟨S3300000, .i32⟩ : BufTy).Contents (Elt F)),
    binary main_v12 main_v96 main_v97 (addi : (⟨S3300000, .i32⟩ : BufTy).Contents (Elt F) → (⟨S3300000, .i32⟩ : BufTy).Contents (Elt F) → (⟨S3300000, .i32⟩ : BufTy).Contents (Elt F)),
    ternary main_v95 main_v97 main_v12 main_v98 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v98 main_v99 (broadcastInDim S3300000x1 ![0] bcast_S3300000_S3300000x1_0 : (⟨S3300000, .i32⟩ : BufTy).Contents (Elt F) → (⟨S3300000x1, .i32⟩ : BufTy).Contents (Elt F)),
    binary main_v93 main_v99 main_v100 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v39 main_v101 (broadcastInDim S3300000x1 ![0] bcast_S3300000_S3300000x1_0 : (⟨S3300000, .f32⟩ : BufTy).Contents (Elt F) → (⟨S3300000x1, .f32⟩ : BufTy).Contents (Elt F)),
    unary main_v101 main_v102 (broadcastInDim S3300000x64 ![0, 1] bcast_S3300000x1_S3300000x64_0_1 : (⟨S3300000x1, .f32⟩ : BufTy).Contents (Elt F) → (⟨S3300000x64, .f32⟩ : BufTy).Contents (Elt F)),
    binary main_v100 main_v102 main_v103 (mulf : (⟨S3300000x64, .f32⟩ : BufTy).Contents (Elt F) → (⟨S3300000x64, .f32⟩ : BufTy).Contents (Elt F) → (⟨S3300000x64, .f32⟩ : BufTy).Contents (Elt F)),
    nullary main_cst_23 (constant S_ .f32 0x00000000#32),
    unary main_cst_23 main_v104 (broadcastInDim S100000x64 ![] bcast_S_S100000x64 : (⟨S_, .f32⟩ : BufTy).Contents (Elt F) → (⟨S100000x64, .f32⟩ : BufTy).Contents (Elt F)),
    unary main_v15 main_v105 (broadcastInDim S3300000x1 ![0] bcast_S3300000_S3300000x1_0 : (⟨S3300000, .i32⟩ : BufTy).Contents (Elt F) → (⟨S3300000x1, .i32⟩ : BufTy).Contents (Elt F)),
    ternary main_v104 main_v105 main_v103 main_v106 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    nullary main_cst_24 (constant S_ .f32 0x3F666666#32),
    unary main_cst_24 main_v107 (broadcastInDim S100000x64 ![] bcast_S_S100000x64 : (⟨S_, .f32⟩ : BufTy).Contents (Elt F) → (⟨S100000x64, .f32⟩ : BufTy).Contents (Elt F)),
    binary main_v107 main_v106 main_v108 (mulf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3DCCCCCD#32),
    unary main_cst_25 main_v109 (broadcastInDim S100000x64 ![] bcast_S_S100000x64 : (⟨S_, .f32⟩ : BufTy).Contents (Elt F) → (⟨S100000x64, .f32⟩ : BufTy).Contents (Elt F)),
    binary main_v109 main_v8 main_v110 (mulf : (⟨S100000x64, .f32⟩ : BufTy).Contents (Elt F) → (⟨S100000x64, .f32⟩ : BufTy).Contents (Elt F) → (⟨S100000x64, .f32⟩ : BufTy).Contents (Elt F)),
    binary main_v108 main_v110 main_v111 (addf : (⟨S100000x64, .f32⟩ : BufTy).Contents (Elt F) → (⟨S100000x64, .f32⟩ : BufTy).Contents (Elt F) → (⟨S100000x64, .f32⟩ : BufTy).Contents (Elt F)),
    nullary main_c_26 (constantI S_ 32 0#32),
    unary main_c_26 main_v112 (broadcastInDim S3300000 ![] bcast_S_S3300000 : (⟨S_, .i32⟩ : BufTy).Contents (Elt F) → (⟨S3300000, .i32⟩ : BufTy).Contents (Elt F)),
    binary main_v12 main_v112 main_v113 (cmpi .slt : (⟨S3300000, .i32⟩ : BufTy).Contents (Elt F) → (⟨S3300000, .i32⟩ : BufTy).Contents (Elt F) → (⟨S3300000, .i1⟩ : BufTy).Contents (Elt F)),
    nullary main_c_27 (constantI S_ 32 100000#32),
    unary main_c_27 main_v114 (broadcastInDim S3300000 ![] bcast_S_S3300000 : (⟨S_, .i32⟩ : BufTy).Contents (Elt F) → (⟨S3300000, .i32⟩ : BufTy).Contents (Elt F)),
    binary main_v12 main_v114 main_v115 (addi : (⟨S3300000, .i32⟩ : BufTy).Contents (Elt F) → (⟨S3300000, .i32⟩ : BufTy).Contents (Elt F) → (⟨S3300000, .i32⟩ : BufTy).Contents (Elt F)),
    ternary main_v113 main_v115 main_v12 main_v116 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v116 main_v117 (broadcastInDim S3300000x1 ![0] bcast_S3300000_S3300000x1_0 : (⟨S3300000, .i32⟩ : BufTy).Contents (Elt F) → (⟨S3300000x1, .i32⟩ : BufTy).Contents (Elt F)),
    binary main_v111 main_v117 main_v118 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v39 main_v119 (broadcastInDim S3300000x1 ![0] bcast_S3300000_S3300000x1_0 : (⟨S3300000, .f32⟩ : BufTy).Contents (Elt F) → (⟨S3300000x1, .f32⟩ : BufTy).Contents (Elt F)),
    unary main_v119 main_v120 (broadcastInDim S3300000x64 ![0, 1] bcast_S3300000x1_S3300000x64_0_1 : (⟨S3300000x1, .f32⟩ : BufTy).Contents (Elt F) → (⟨S3300000x64, .f32⟩ : BufTy).Contents (Elt F)),
    binary main_v118 main_v120 main_v121 (mulf : (⟨S3300000x64, .f32⟩ : BufTy).Contents (Elt F) → (⟨S3300000x64, .f32⟩ : BufTy).Contents (Elt F) → (⟨S3300000x64, .f32⟩ : BufTy).Contents (Elt F)),
    nullary main_cst_28 (constant S_ .f32 0x00000000#32),
    unary main_cst_28 main_v122 (broadcastInDim S100000x64 ![] bcast_S_S100000x64 : (⟨S_, .f32⟩ : BufTy).Contents (Elt F) → (⟨S100000x64, .f32⟩ : BufTy).Contents (Elt F)),
    unary main_v15 main_v123 (broadcastInDim S3300000x1 ![0] bcast_S3300000_S3300000x1_0 : (⟨S3300000, .i32⟩ : BufTy).Contents (Elt F) → (⟨S3300000x1, .i32⟩ : BufTy).Contents (Elt F)),
    ternary main_v122 main_v123 main_v121 main_v124 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    nullary main_cst_29 (constant S_ .f32 0x3F666666#32),
    unary main_cst_29 main_v125 (broadcastInDim S100000x64 ![] bcast_S_S100000x64 : (⟨S_, .f32⟩ : BufTy).Contents (Elt F) → (⟨S100000x64, .f32⟩ : BufTy).Contents (Elt F)),
    binary main_v125 main_v124 main_v126 (mulf : (⟨S100000x64, .f32⟩ : BufTy).Contents (Elt F) → (⟨S100000x64, .f32⟩ : BufTy).Contents (Elt F) → (⟨S100000x64, .f32⟩ : BufTy).Contents (Elt F)),
    nullary main_cst_30 (constant S_ .f32 0x3DCCCCCD#32),
    unary main_cst_30 main_v127 (broadcastInDim S100000x64 ![] bcast_S_S100000x64 : (⟨S_, .f32⟩ : BufTy).Contents (Elt F) → (⟨S100000x64, .f32⟩ : BufTy).Contents (Elt F)),
    binary main_v127 main_v8 main_v128 (mulf : (⟨S100000x64, .f32⟩ : BufTy).Contents (Elt F) → (⟨S100000x64, .f32⟩ : BufTy).Contents (Elt F) → (⟨S100000x64, .f32⟩ : BufTy).Contents (Elt F)),
    binary main_v126 main_v128 main_v129 (addf : (⟨S100000x64, .f32⟩ : BufTy).Contents (Elt F) → (⟨S100000x64, .f32⟩ : BufTy).Contents (Elt F) → (⟨S100000x64, .f32⟩ : BufTy).Contents (Elt F)) ]
theorem opsRounds_sub : (opsRounds : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem opsRounds_fresh : (opsRounds : List (HloOp τ sig (Elt F))).Forall fun op => op.fresh = ∅ := by
  simp only [List.Forall]; repeat' constructor

/-- The inlined row-wise log-softmax. -/
abbrev opsLsm : List (HloOp τ sig (Elt F)) :=
  [ TRef.nullary (TRef.of (T := ⟨S_, .f32⟩) main_call2_cst) (constant S_ .f32 0xFF800000#32),
    TRef.binary (TRef.of (T := ⟨S100000x64, .f32⟩) main_v129) (TRef.of (T := ⟨S_, .f32⟩) main_call2_cst) (TRef.of (T := ⟨S100000, .f32⟩) main_call2_v0) (fun x v => Host.reduce FloatOps.maximumf x v reducesTo_S100000x64_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v129) (TRef.of (T := ⟨S100000x64, .f32⟩) main_call2_v4) (TRef.of (T := ⟨S100000x64, .f32⟩) main_call2_v5) subf,
    TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v130) subf ]
theorem opsLsm_sub : (opsLsm : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsLsm_fresh : (opsLsm : List (HloOp τ sig (Elt F))).Forall fun op => op.fresh = ∅ := by
  simp only [List.Forall]; repeat' constructor

/-- The whole program's operations, in order. -/
abbrev ops : List (HloOp τ sig (Elt F)) := opsMlp ++ (opsEnds ++ (opsWhere ++ (opsRounds ++ opsLsm)))

set_option maxHeartbeats 4000000 in
/-- The program is the sequence of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- A property of every operation of each piece holds of every operation of the whole list. -/
theorem forall_ops {p : HloOp τ sig (Elt F) → Prop} (h0 : (opsMlp (F := F)).Forall p) (h1 : (opsEnds (F := F)).Forall p)
    (h2 : (opsWhere (F := F)).Forall p) (h3 : (opsRounds (F := F)).Forall p) (h4 : (opsLsm (F := F)).Forall p) :
    ∀ op ∈ (ops (F := F)), p op := by
  intro op h
  rcases List.mem_append.mp h with h | h
  · exact List.forall_iff_forall_mem.mp h0 op h
  rcases List.mem_append.mp h with h | h
  · exact List.forall_iff_forall_mem.mp h1 op h
  rcases List.mem_append.mp h with h | h
  · exact List.forall_iff_forall_mem.mp h2 op h
  rcases List.mem_append.mp h with h | h
  · exact List.forall_iff_forall_mem.mp h3 op h
  · exact List.forall_iff_forall_mem.mp h4 op h

/-- The contents after the whole list are the pieces' folds, one over the other. -/
theorem after_ops (V : Valuation τ sig (Elt F)) :
    after (ops (F := F)) V = after opsLsm (after opsRounds (after opsWhere (after opsEnds (after opsMlp V)))) := by
  unfold ops
  rw [Cert.LibAfterAppend.after_append, Cert.LibAfterAppend.after_append, Cert.LibAfterAppend.after_append,
    Cert.LibAfterAppend.after_append]

/-- Every weakly fair execution terminates with each buffer at the fold of the operations over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq
    (fun _ => List.forall_iff_forall_mem.mpr (forall_ops opsMlp_sub opsEnds_sub opsWhere_sub opsRounds_sub opsLsm_sub)) m ρ
    (fun _ => forall_ops opsMlp_fresh opsEnds_fresh opsWhere_fresh opsRounds_fresh opsLsm_fresh)

end Cert.ReferenceIdeal.RunValue

end
-- ==== Proof.RefTerms.lean ====
/-
  The reference's two dense stages as whole-array functions of their operands, in the host operations' own words:
  the perceptron  (x · W1 + b1, maximum with zero, · W2 + b2)  with each bias spread by two broadcasts, and the row-wise
  log-softmax  z − log Σ exp z,  z = h − max(−∞, max over the row).
-/
import proofs.«154835_j58188216926735_1_alg».proof.ReferenceIdeal
import proofs.«154835_j58188216926735_1_alg».proof.Proof.Gen.ReferenceIdeal

noncomputable section

namespace Cert.ReferenceIdeal.Hand

open Cert.ReferenceIdeal Cert.ReferenceIdeal.Gen Idealize.ShloMosaic

variable {F : FTy → Type} [FloatOps F]

/-- The perceptron, as the reference's host operations compose. -/
def mlpHost (x0 : (⟨S100000x512, .f32⟩ : BufTy).Contents (Elt F)) (x2 : (⟨S512x256, .f32⟩ : BufTy).Contents (Elt F))
    (x3 : (⟨S256, .f32⟩ : BufTy).Contents (Elt F)) (x4 : (⟨S256x64, .f32⟩ : BufTy).Contents (Elt F))
    (x5 : (⟨S64, .f32⟩ : BufTy).Contents (Elt F)) : (⟨S100000x64, .f32⟩ : BufTy).Contents (Elt F) :=
  addf
    (Host.dotGeneral dot_S100000x256_S256x64_S100000x64_1_0_0_1_n_n none
      (maximumf
        (addf (Host.dotGeneral dot_S100000x512_S512x256_S100000x256_1_0_0_1_n_n none x0 x2)
          (broadcastInDim S100000x256 ![0, 1] bcast_S1x256_S100000x256_0_1 (broadcastInDim S1x256 ![1] bcast_S256_S1x256_1 x3)))
        (broadcastInDim S100000x256 ![] bcast_S_S100000x256 (constant S_ .f32 0x00000000#32)))
      x4)
    (broadcastInDim S100000x64 ![0, 1] bcast_S1x64_S100000x64_0_1 (broadcastInDim S1x64 ![1] bcast_S64_S1x64_1 x5))

/-- The entries minus their row's maximum (the maximum taken once more against −∞). -/
def shifted (h : (⟨S100000x64, .f32⟩ : BufTy).Contents (Elt F)) : (⟨S100000x64, .f32⟩ : BufTy).Contents (Elt F) :=
  subf h
    (broadcastInDim S100000x64 ![0, 1] bcast_S100000x1_S100000x64_0_1
      (broadcastInDim S100000x1 ![0] bcast_S100000_S100000x1_0
        (maximumf (broadcastInDim S100000 ![] bcast_S_S100000 (constant S_ .f32 0xFF800000#32))
          (Host.reduce FloatOps.maximumf h (constant S_ .f32 0xFF800000#32) reducesTo_S100000x64_S100000_d1 h_S_))))

/-- The row-wise log-softmax, as the reference's host operations compose. -/
def lsmHost (h : (⟨S100000x64, .f32⟩ : BufTy).Contents (Elt F)) : (⟨S100000x64, .f32⟩ : BufTy).Contents (Elt F) :=
  subf (shifted h)
    (broadcastInDim S100000x64 ![0, 1] bcast_S100000x1_S100000x64_0_1
      (Host.log
        (broadcastInDim S100000x1 ![0] bcast_S100000_S100000x1_0
          (Host.reduceAdd (Host.exp (shifted h)) (constant S_ .f32 0x00000000#32) reducesTo_S100000x64_S100000_d1 h_S_))))

end Cert.ReferenceIdeal.Hand

end
-- ==== Proof.RefMiddle.lean ====
/-
  The reference program's host operations, piece by piece, against the shared functions.

  Read over an arbitrary valuation of the buffers: the first piece leaves the perceptron of the five float arguments;
  the next three are the propagation's three stretches (the edges' ends, the ones and the degree's two readings; the
  weights; the coefficients and the five rounds); the last leaves the row-wise log-softmax of what it is handed. A
  buffer a piece does not write keeps its contents. Composed: the result is the log-softmax of the propagation of the
  perceptron, and the arguments end as launched.
-/
import proofs.«154835_j58188216926735_1_alg».proof.Proof.RefRun
import proofs.«154835_j58188216926735_1_alg».proof.Proof.RefTerms
import proofs.«154835_j58188216926735_1_alg».proof.Proof.Middle
import proofs.«154835_j58188216926735_1_alg».proof.Proof.LibHostReads
import proofs.«154835_j58188216926735_1_alg».proof.Proof.LibKeeps
import proofs.«154835_j58188216926735_1_alg».proof.Proof.LibTRefCasts

set_option maxRecDepth 16384

noncomputable section

namespace Cert.ReferenceIdeal.MidValue

open Cert.ReferenceIdeal Cert.ReferenceIdeal.Gen Cert.ReferenceIdeal.RunValue Idealize.ShloMosaic Idealize.ShloMosaic.StableHlo Idealize.SL.Sem
open Cert.LibHostReads Cert.LibTRefCasts Idealize.ShloMosaic.TcCoe

variable {F : FTy → Type} [FloatOps F]

/-- The program's side conditions, as the shared propagation takes them. -/
theorem midFacts : Cert.Middle.Facts :=
  ⟨slices_S2x3200000_S1x3200000_0_0, slices_S2x3200000_S1x3200000_1_0, shapeCasts_S1x3200000_S3200000,
    concatenates_S3200000_S100000_S3300000_d0, bcast_S_S3300000, bcast_S_S100000, bcast_S3300000_S3300000x1_0,
    bcast_S3300000x1_S3300000x64_0_1, bcast_S_S100000x64⟩

/-- The program's dimension records, as the shared propagation takes them. -/
abbrev midDims : Cert.Middle.Dims :=
  ⟨scatter_S100000_S3300000x1_S3300000_n_0_0_1, gather_S100000_S3300000x1_S3300000_n_0_n_n_0_1_1,
    gather_S100000x64_S3300000x1_S3300000x64_1_0_n_n_0_1_164, scatter_S100000x64_S3300000x1_S3300000x64_1_0_0_1⟩

variable (V : Valuation τ sig (Elt F))

/-! ## The perceptron -/

theorem mlp_read :
    after (opsMlp (F := F)) V (Proc.devRef .tc main_v8)
      = Cert.ReferenceIdeal.Hand.mlpHost (V (Proc.devRef .tc main_arg0)) (V (Proc.devRef .tc main_arg2)) (V (Proc.devRef .tc main_arg3))
          (V (Proc.devRef .tc main_arg4)) (V (Proc.devRef .tc main_arg5)) := by
  simp only [opsMlp]
  after_results_simp
  rfl

theorem mlp_keeps_edges : after (opsMlp (F := F)) V (Proc.devRef .tc main_arg1) = V (Proc.devRef .tc main_arg1) := by
  keeps_host opsMlp

/-! ## The first stretch: the edges' ends, the ones, the degree's two readings -/

theorem first_sources :
    after (opsEnds (F := F)) V (Proc.devRef .tc main_v12) = Cert.Middle.sources midFacts (V (Proc.devRef .tc main_arg1)) := by
  simp only [opsEnds]
  after_results_simp
  host_reads
  rfl

theorem first_targets :
    after (opsEnds (F := F)) V (Proc.devRef .tc main_v15) = Cert.Middle.targets midFacts (V (Proc.devRef .tc main_arg1)) := by
  simp only [opsEnds]
  after_results_simp
  host_reads
  rfl

theorem first_ones :
    after (opsEnds (F := F)) V (Proc.devRef .tc main_v16) = Cert.Middle.ones (F := F) midFacts := by
  simp only [opsEnds]
  after_results_simp
  rfl

theorem first_positive :
    after (opsEnds (F := F)) V (Proc.devRef .tc main_v21)
      = Cert.Middle.positive midFacts (Cert.Middle.degree midFacts midDims (Cert.Middle.targets midFacts (V (Proc.devRef .tc main_arg1))) (Cert.Middle.ones midFacts)) := by
  simp only [opsEnds]
  after_results_simp
  host_reads
  rfl

theorem first_rsqrt :
    after (opsEnds (F := F)) V (Proc.devRef .tc main_v22)
      = Host.rsqrt (Cert.Middle.degree midFacts midDims (Cert.Middle.targets midFacts (V (Proc.devRef .tc main_arg1))) (Cert.Middle.ones midFacts)) := by
  simp only [opsEnds]
  after_results_simp
  host_reads
  rfl

theorem first_zero :
    after (opsEnds (F := F)) V (Proc.devRef .tc main_cst_2) = constant S_ .f32 0x00000000#32 := by
  simp only [opsEnds]
  after_results_simp

theorem first_keeps_v8 : after (opsEnds (F := F)) V (Proc.devRef .tc main_v8) = V (Proc.devRef .tc main_v8) := by
  keeps_host opsEnds

/-! ## The second stretch: the weights -/

theorem second_weight :
    after (opsWhere (F := F)) V (Proc.devRef .tc main_v23)
      = Cert.Middle.weightOf midFacts (V (Proc.devRef .tc main_v21)) (V (Proc.devRef .tc main_v22)) (V (Proc.devRef .tc main_cst_2)) := by
  simp only [opsWhere]
  after_results_simp
  rfl

theorem second_keeps_v8 : after (opsWhere (F := F)) V (Proc.devRef .tc main_v8) = V (Proc.devRef .tc main_v8) := by
  keeps_host opsWhere
theorem second_keeps_v12 : after (opsWhere (F := F)) V (Proc.devRef .tc main_v12) = V (Proc.devRef .tc main_v12) := by
  keeps_host opsWhere
theorem second_keeps_v15 : after (opsWhere (F := F)) V (Proc.devRef .tc main_v15) = V (Proc.devRef .tc main_v15) := by
  keeps_host opsWhere
theorem second_keeps_v16 : after (opsWhere (F := F)) V (Proc.devRef .tc main_v16) = V (Proc.devRef .tc main_v16) := by
  keeps_host opsWhere

/-! ## The third stretch: the coefficients and the five rounds -/

set_option maxHeartbeats 4000000 in
theorem third_rounds :
    after (opsRounds (F := F)) V (Proc.devRef .tc main_v129)
      = Cert.Middle.propagate midFacts midDims (V (Proc.devRef .tc main_v12)) (V (Proc.devRef .tc main_v15))
          (V (Proc.devRef .tc main_v16)) (V (Proc.devRef .tc main_v23)) (V (Proc.devRef .tc main_v8)) := by
  simp only [opsRounds]
  after_results_simp
  rfl

/-! ## The log-softmax -/

/-- Read through its typed reference, the array the log-softmax is handed is the buffer's contents. -/
theorem handed_as_is :
    (TRef.of (T := ⟨S100000x64, .f32⟩) main_v129).ofBuf (V (Proc.devRef .tc main_v129)) = V (Proc.devRef .tc main_v129) :=
  eq_of_heq (cast_heq _ _)

theorem lsm_read :
    after (opsLsm (F := F)) V (Proc.devRef .tc main_v130) = Cert.ReferenceIdeal.Hand.lsmHost (V (Proc.devRef .tc main_v129)) := by
  simp only [opsLsm]
  after_results_simp
  simp only [ofBuf_toBuf]
  rw [handed_as_is V]
  exact (eq_of_heq (cast_heq _ _)).trans rfl

/-! ## Composed -/

/-- The result buffer after the whole program: the log-softmax of the propagation of the perceptron. -/
theorem result_read :
    after (ops (F := F)) V (Proc.devRef .tc main_v130)
      = Cert.ReferenceIdeal.Hand.lsmHost (Cert.Middle.mid midFacts midDims
          (Cert.ReferenceIdeal.Hand.mlpHost (V (Proc.devRef .tc main_arg0)) (V (Proc.devRef .tc main_arg2)) (V (Proc.devRef .tc main_arg3))
            (V (Proc.devRef .tc main_arg4)) (V (Proc.devRef .tc main_arg5)))
          (V (Proc.devRef .tc main_arg1))) := by
  rw [after_ops, lsm_read, third_rounds, second_keeps_v12, second_keeps_v15, second_keeps_v16, second_weight, second_keeps_v8,
    first_sources, first_targets, first_ones, first_positive, first_rsqrt, first_zero, first_keeps_v8, mlp_read, mlp_keeps_edges]
  rfl

/-- An argument no piece writes ends as it started: one inequality of buffer names per operation. -/
macro "keeps_every_piece" : tactic =>
  `(tactic| (rw [after_ops]
             refine Eq.trans (by keeps_host opsLsm) ?_
             refine Eq.trans (by keeps_host opsRounds) ?_
             refine Eq.trans (by keeps_host opsWhere) ?_
             refine Eq.trans (by keeps_host opsEnds) ?_
             keeps_host opsMlp))

theorem keeps_arg0 : after (ops (F := F)) V (Proc.devRef .tc main_arg0) = V (Proc.devRef .tc main_arg0) := by keeps_every_piece
theorem keeps_arg1 : after (ops (F := F)) V (Proc.devRef .tc main_arg1) = V (Proc.devRef .tc main_arg1) := by keeps_every_piece
theorem keeps_arg2 : after (ops (F := F)) V (Proc.devRef .tc main_arg2) = V (Proc.devRef .tc main_arg2) := by keeps_every_piece
theorem keeps_arg3 : after (ops (F := F)) V (Proc.devRef .tc main_arg3) = V (Proc.devRef .tc main_arg3) := by keeps_every_piece
theorem keeps_arg4 : after (ops (F := F)) V (Proc.devRef .tc main_arg4) = V (Proc.devRef .tc main_arg4) := by keeps_every_piece
theorem keeps_arg5 : after (ops (F := F)) V (Proc.devRef .tc main_arg5) = V (Proc.devRef .tc main_arg5) := by keeps_every_piece

/-- The reference's run with its result named: the log-softmax of the propagation of the perceptron of the launch
    arguments; the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v130)
        = Cert.ReferenceIdeal.Hand.lsmHost (Cert.Middle.mid midFacts midDims
            (Cert.ReferenceIdeal.Hand.mlpHost (m ((c.tc : Thread nD τ).loc main_arg0)) (m ((c.tc : Thread nD τ).loc main_arg2))
              (m ((c.tc : Thread nD τ).loc main_arg3)) (m ((c.tc : Thread nD τ).loc main_arg4)) (m ((c.tc : Thread nD τ).loc main_arg5)))
            (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨(h c main_v130).trans (result_read _), (h c main_arg0).trans (keeps_arg0 _), (h c main_arg1).trans (keeps_arg1 _),
        (h c main_arg2).trans (keeps_arg2 _), (h c main_arg3).trans (keeps_arg3 _), (h c main_arg4).trans (keeps_arg4 _),
        (h c main_arg5).trans (keeps_arg5 _)⟩)
    (run_fold m ρ)

end Cert.ReferenceIdeal.MidValue

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.MlpRef.lean ====
/-
  The reference's host perceptron, read entry by entry.

  Entry (r, c) of a plain product [A, K] × [K, B] is Σ_k l(r, k) · w(k, c); a bias vector spread by the two broadcasts
  [b] → [1, b] → [a, b] reads, at (r, j), the vector's entry j; the scalar zero spread over a shape reads the zero
  literal's value, which is the extended real 0.  Put together, entry (r, c) of the host composition is
      (Σ_k max(Σ_j x(r, j) · W1(j, k) + b1(k), 0) · W2(k, c)) + b2(c),
  the specification's entry.
-/
import proofs.«154835_j58188216926735_1_alg».proof.Proof.Spec
import proofs.«154835_j58188216926735_1_alg».proof.Proof.RefTerms
import proofs.«154835_j58188216926735_1_alg».proof.Proof.LibPlainDot
import proofs.«154835_j58188216926735_1_alg».proof.Proof.LibRowBcast
import Idealize.ShloMosaic.Lib.Pipeline.Value
import Idealize.ShloMosaic.Lib.ValueIdx
import Idealize.ShloMosaic.PureOps.Ideal.Laws

noncomputable section

open scoped BigOperators

namespace Cert.ReferenceIdeal.MlpValue

open Cert.ReferenceIdeal Idealize.ShloMosaic Idealize.ShloMosaic.ValueIdx

/-- The first layer's contraction is a plain product [100000, 512] × [512, 256]. -/
theorem plain1 : Cert.LibPlainDot.Plain dot_S100000x512_S512x256_S100000x256_1_0_0_1_n_n := ⟨rfl, rfl, rfl, rfl, rfl, rfl⟩

/-- The second layer's contraction is a plain product [100000, 256] × [256, 64]. -/
theorem plain2 : Cert.LibPlainDot.Plain dot_S100000x256_S256x64_S100000x64_1_0_0_1_n_n := ⟨rfl, rfl, rfl, rfl, rfl, rfl⟩

/-- A scalar spread over a shape reads the scalar at every index. -/
theorem bcast_scalar_apply {α : Type} {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- The hidden layer of the host composition at (r, k): max(Σ_j x(r, j) · W1(j, k) + b1(k), 0). -/
theorem hidden_apply (x0 : FVec Ideal S100000x512 .f32) (x2 : FVec Ideal S512x256 .f32) (x3 : FVec Ideal S256 .f32)
    (r : Fin 100000) (k : Fin 256) :
    (maximumf
        (addf (Host.dotGeneral (F := Ideal) dot_S100000x512_S512x256_S100000x256_1_0_0_1_n_n none x0 x2)
          (broadcastInDim S100000x256 ![0, 1] Gen.bcast_S1x256_S100000x256_0_1 (broadcastInDim S1x256 ![1] Gen.bcast_S256_S1x256_1 x3)))
        (broadcastInDim S100000x256 ![] Gen.bcast_S_S100000x256 (constant (F := Ideal) S_ .f32 0x00000000#32)) :
      FVec Ideal S100000x256 .f32) (ix2 r k)
      = Cert.Spec.hidden x0 x2 x3 r k := by
  rw [maximumf_apply, addf_apply, Cert.LibRowBcast.bcast_vec_rows_apply, bcast_scalar_apply, constant_apply,
    Ideal.ofBits_zero_f32]
  simp only [Host.dotGeneral]
  rw [plain1.dotGeneral_apply]
  rfl

/-- The reference's host perceptron is the specification's, entry by entry. -/
theorem mlpHost_eq (x0 : (⟨S100000x512, .f32⟩ : BufTy).Contents (Elt Ideal)) (x2 : (⟨S512x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) :
    Cert.ReferenceIdeal.Hand.mlpHost (F := Ideal) x0 x2 x3 x4 x5 = Cert.Spec.mlp x0 x2 x3 x4 x5 := by
  refine Cert.Spec.ext_ix2 fun r c => ?_
  rw [Cert.Spec.mlp_ix2]
  unfold Cert.ReferenceIdeal.Hand.mlpHost Cert.Spec.mlpAt
  rw [addf_apply, Cert.LibRowBcast.bcast_vec_rows_apply]
  simp only [Host.dotGeneral]
  rw [plain2.dotGeneral_apply]
  refine congrArg (· + x5 (ix1 c)) (Finset.sum_congr rfl fun k _ => ?_)
  exact congrArg (· * x4 (ix2 k c)) (hidden_apply x0 x2 x3 r k)

end Cert.ReferenceIdeal.MlpValue

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LsmRef.lean ====
/-
  The reference's row-wise log-softmax, read entry by entry.

  The host computes the row maximum by a reduction along the columns from −∞, takes the maximum of that against −∞
  once more (which changes nothing), spreads it back over the row as a column and then across the columns, subtracts,
  exponentiates, sums each row from zero, takes the logarithm, spreads it back the same way and subtracts again. Each
  step is read at the entry (r, c); the result is the specification's log-softmax.
-/
import proofs.«154835_j58188216926735_1_alg».proof.Proof.RefTerms
import proofs.«154835_j58188216926735_1_alg».proof.Proof.Spec
import proofs.«154835_j58188216926735_1_alg».proof.Proof.LibRowMax
import proofs.«154835_j58188216926735_1_alg».proof.Proof.LibJoinedRows
import Idealize.ShloMosaic.PureOps.Reduce
import Idealize.ShloMosaic.PureOps.Ideal.Laws

noncomputable section

open scoped BigOperators

namespace Cert.ReferenceIdeal.LsmRows

open Idealize.ShloMosaic Idealize.ShloMosaic.ValueIdx

/-- A host maximum reduction of an `[a, b]` array of extended reals along its second axis is, at row `i`, the fold of
    `max` from the initial value over the entries of the row. -/
theorem hostReduce_max_rows_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (max : EReal → EReal → EReal) x init h' hu (ix1 i)
      = (Finset.univ : Finset (Fin b)).fold max (init (Shape.Idx.first hu)) (fun k => x (ix2 i k)) := by
  refine (Host.reduce_eq_fold_single (max : EReal → EReal → EReal) x init h' h hu (ix1 i)).trans ?_
  have hf : (x ∘ h.lift (ix1 i)) = fun k : Fin b => x (ix2 i k) :=
    funext fun k => congrArg x (funext fun ax => Fin.ext (by
      match ax with
      | ⟨0, _⟩ => rfl
      | ⟨1, _⟩ => rfl))
  rw [hf]
  rfl

/-- A host sum of an `[a, b]` array of extended reals along its second axis is, at row `i`, the initial value plus the
    sum of the entries of the row. -/
theorem hostReduceAdd_rows_apply {a b : ℕ} (x : (⟨2, ![a, b]⟩ : Shape).Idx → EReal) (init : EReal)
    (h' : (⟨2, ![a, b]⟩ : Shape).ReducesTo [1] ⟨1, ![a]⟩) (h : (⟨2, ![a, b]⟩ : Shape).Reduces [1] ⟨1, ![a]⟩) (i : Fin a) :
    Ideal.hostReduceAdd h' x init (ix1 i) = init + ∑ k : Fin b, x (ix2 i k) := by
  refine (Ideal.hostReduceAdd_single h' h x init (ix1 i)).trans ?_
  refine congrArg (init + ·) (Finset.sum_congr rfl fun k _ => congrArg x ?_)
  funext ax
  apply Fin.ext
  match ax with
  | ⟨0, _⟩ => rfl
  | ⟨1, _⟩ => rfl

/-- The host's logarithm at an index is the logarithm of the entry. -/
theorem hostLog_apply {s : Shape} {φ : FTy} (x : FVec Ideal s φ) (i : s.Idx) : Host.log x i = Ideal.log (x i) := rfl

/-- The host's exponential at an index is the exponential of the entry. -/
theorem hostExp_apply {s : Shape} {φ : FTy} (x : FVec Ideal s φ) (i : s.Idx) : Host.exp x i = Ideal.exp (x i) := rfl

/-- The host's float sum over axes is the exact sum from the initial value's one entry. -/
theorem hostReduceAdd_apply {s t u : Shape} {φ : FTy} {axes : List (Fin s.rank)} (x : FVec Ideal s φ) (init : u.Idx → Ideal φ)
    (h : s.ReducesTo axes t) (hu : 0 < u.numel) (j : t.Idx) :
    Host.reduceAdd (F := Ideal) x init h hu j = Ideal.hostReduceAdd h x (init (Shape.Idx.first hu)) j := rfl

end Cert.ReferenceIdeal.LsmRows

namespace Cert.ReferenceIdeal.LsmValue

open Cert.ReferenceIdeal Cert.ReferenceIdeal.Gen Idealize.ShloMosaic Idealize.ShloMosaic.ValueIdx

/-- The shape fact that names the column inserted into a row index. -/
theorem reduces_rows : S100000x64.Reduces [1] S100000 := by decide

/-- The host's row maximum at row `r` is the specification's. -/
theorem hostRowMax_apply (h : (⟨S100000x64, .f32⟩ : BufTy).Contents (Elt Ideal)) (r : Fin 100000) :
    Host.reduce FloatOps.maximumf h (constant (F := Ideal) S_ .f32 0xFF800000#32) reducesTo_S100000x64_S100000_d1 h_S_ (ix1 r)
      = Cert.Spec.rowMax h r := by
  refine (Cert.ReferenceIdeal.LsmRows.hostReduce_max_rows_apply h _ reducesTo_S100000x64_S100000_d1 reduces_rows h_S_ r).trans ?_
  show (Finset.univ : Finset (Fin 64)).fold max (Ideal.ofBits .f32 0xFF800000#32) _ = _
  rw [Cert.LibRowMax.ofBits_neg_inf_f32]
  rfl

/-- An entry minus its row's maximum. -/
theorem shifted_ix2 (h : (⟨S100000x64, .f32⟩ : BufTy).Contents (Elt Ideal)) (r : Fin 100000) (c : Fin 64) :
    Hand.shifted (F := Ideal) h (ix2 r c) = h (ix2 r c) - Cert.Spec.rowMax h r := by
  unfold Hand.shifted
  rw [subf_apply, Cert.LibJoinedRows.bcast_col_rows_apply, Cert.LibJoinedRows.bcast_vec_col_apply, maximumf_apply,
    Cert.LibJoinedRows.bcast_scalar_apply, constant_apply, Cert.LibRowMax.ofBits_neg_inf_f32, hostRowMax_apply]
  exact congrArg (h (ix2 r c) - ·) (max_eq_right bot_le)

/-- The reference's host log-softmax is the specification's, entry by entry. -/
theorem lsmHost_eq (h : (⟨S100000x64, .f32⟩ : BufTy).Contents (Elt Ideal)) :
    Cert.ReferenceIdeal.Hand.lsmHost (F := Ideal) h = Cert.Spec.logSoftmax h := by
  refine Cert.Spec.ext_ix2 fun r c => ?_
  rw [Cert.Spec.logSoftmax_ix2]
  unfold Hand.lsmHost Cert.Spec.lsmAt
  rw [subf_apply, shifted_ix2, Cert.LibJoinedRows.bcast_col_rows_apply, Cert.ReferenceIdeal.LsmRows.hostLog_apply,
    Cert.LibJoinedRows.bcast_vec_col_apply, Cert.ReferenceIdeal.LsmRows.hostReduceAdd_apply,
    Cert.ReferenceIdeal.LsmRows.hostReduceAdd_rows_apply _ _ _ reduces_rows r, constant_apply, Ideal.ofBits_zero_f32, zero_add]
  simp only [Cert.ReferenceIdeal.LsmRows.hostExp_apply, shifted_ix2]

end Cert.ReferenceIdeal.LsmValue

end
-- ==== Proof.Bridge.lean ====
/-
  The two programs compute one function of the arguments.

  Both results are the row-wise log-softmax of the five-round propagation (over the edge list) of the two-layer
  perceptron of the node features. On the kernel's side the perceptron and the log-softmax are what the two
  pallas_calls leave, tile by tile, and the propagation is the host stretch between them; on the reference's side all
  three are host operations. The propagation is the same function on both sides; only its dimension records and side
  conditions are stated twice, once per program, and these coincide.
-/
import proofs.«154835_j58188216926735_1_alg».proof.Proof.KernelRun
import proofs.«154835_j58188216926735_1_alg».proof.Proof.KernelMiddle
import proofs.«154835_j58188216926735_1_alg».proof.Proof.MlpKernel
import proofs.«154835_j58188216926735_1_alg».proof.Proof.LsmKernel
import proofs.«154835_j58188216926735_1_alg».proof.Proof.RefMiddle
import proofs.«154835_j58188216926735_1_alg».proof.Proof.MlpRef
import proofs.«154835_j58188216926735_1_alg».proof.Proof.LsmRef

noncomputable section

namespace Cert.Bridge

open Idealize.ShloMosaic Idealize.ShloMosaic.TcCoe Idealize.SL.Sem

/-- The network: log-softmax ∘ propagation ∘ perceptron, as one function of the six arguments. -/
def network (x0 : Cert.Spec.SX.Idx → EReal) (e : Cert.Middle.IArr Ideal Cert.Middle.SE) (w1 : Cert.Spec.SW1.Idx → EReal)
    (b1 : Cert.Spec.SB1.Idx → EReal) (w2 : Cert.Spec.SW2.Idx → EReal) (b2 : Cert.Spec.SB2.Idx → EReal) : Cert.Spec.SH.Idx → EReal :=
  Cert.Spec.logSoftmax
    (Cert.Middle.mid (F := Ideal) Cert.KernelIdeal.MidValue.midFacts Cert.KernelIdeal.MidValue.midDims (Cert.Spec.mlp x0 w1 b1 w2 b2) e)

/-- The two programs' dimension records of the propagation coincide. -/
theorem dims_eq : Cert.ReferenceIdeal.MidValue.midDims = Cert.KernelIdeal.MidValue.midDims := rfl

section Kernel
open Cert.KernelIdeal Cert.KernelIdeal.Gen

/-- What the kernel program leaves in its result buffer is the network of its launch arguments. -/
theorem kernel_result (m : (ℓ : Loc nD τ sig) → Buf (Elt Ideal) ℓ) (ρ : Dev nD → PrngReg) (c : Dev nD) :
    W6 (F := Ideal) m ρ c (Proc.devRef .tc main_v126)
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  have h1 := W6_arr (F := Ideal) m ρ c 1
  have h2 := Cert.KernelIdeal.LsmValue.arr_main_v126 (V5 (F := Ideal) m ρ) c
  have h3 := Cert.KernelIdeal.MidValue.handed (F := Ideal) m ρ c
  have h4 := Cert.KernelIdeal.MlpValue.w2_main_v4 m ρ c
  refine h1.trans (h2.trans ?_)
  unfold network
  rw [← h4]
  exact congrArg Cert.Spec.logSoftmax h3

end Kernel

section Reference
open Cert.ReferenceIdeal

/-- The reference's composed host term is the network of its operands. -/
theorem reference_result (x0 : (⟨S100000x512, .f32⟩ : BufTy).Contents (Elt Ideal)) (x1 : (⟨S2x3200000, .i32⟩ : BufTy).Contents (Elt Ideal))
    (x2 : (⟨S512x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    Cert.ReferenceIdeal.Hand.lsmHost (F := Ideal)
        (Cert.Middle.mid Cert.ReferenceIdeal.MidValue.midFacts Cert.ReferenceIdeal.MidValue.midDims
          (Cert.ReferenceIdeal.Hand.mlpHost (F := Ideal) x0 x2 x3 x4 x5) x1)
      = network x0 x1 x2 x3 x4 x5 := by
  rw [Cert.ReferenceIdeal.LsmValue.lsmHost_eq, Cert.ReferenceIdeal.MlpValue.mlpHost_eq, dims_eq]
  rfl

end Reference

end Cert.Bridge

end
-- ==== Proof.lean ====
/-
  The certificate of a graph network's forward pass: a two-layer perceptron on every node's features, five rounds of
  degree-normalised propagation over the edge list with a 0.1 share of the perceptron's output mixed back in after
  each round, and a row-wise log-softmax.

  The kernel program computes the perceptron and the log-softmax in two tiled pallas_calls (2000 nodes per tile, the
  weights resident, operands rounded to bf16 before each product) and the propagation on the host in between; the
  reference computes all three on the host. Over the extended reals the roundings are the identity, a tile's products
  and row reductions are the whole arrays' restricted to the tile's rows, and the propagation is literally the same
  host operations: both programs end with the same array, for every input, and the precondition is never used.
  The three frames: the kernel program's two are the generated ones; the reference's is its run with the result dropped.
  The idealization rewrote nothing, so `preserves` is trivial.
-/
import proofs.«154835_j58188216926735_1_alg».proof.Defs
import proofs.«154835_j58188216926735_1_alg».proof.Proof.Gen.Kernel
import proofs.«154835_j58188216926735_1_alg».proof.Proof.Gen.Kernel.Frame
import proofs.«154835_j58188216926735_1_alg».proof.Proof.Gen.KernelIdeal
import proofs.«154835_j58188216926735_1_alg».proof.Proof.Gen.KernelIdeal.Frame
import proofs.«154835_j58188216926735_1_alg».proof.Proof.Gen.ReferenceIdeal
import proofs.«154835_j58188216926735_1_alg».proof.Proof.Gen.Pre_finite_inputs
import proofs.«154835_j58188216926735_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.MidValue.run (F := Ideal) m ρ)

theorem preserves : Cert.preserves_Kernel_KernelIdeal := trivial

/-- Both programs end with the network of the arguments in their result buffer. -/
theorem algebraic : Cert.algebraic_KernelIdeal_ReferenceIdeal := by
  intro m ρ m' ρ' _ hagree
  refine ⟨fun c => Cert.Bridge.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.kernel_result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.MidValue.run (F := Ideal) m' ρ')
    rw [(hagree c).1, (hagree c).2.1, (hagree c).2.2.1, (hagree c).2.2.2.1, (hagree c).2.2.2.2.1, (hagree c).2.2.2.2.2]
    exact Cert.Bridge.reference_result _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
